-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v21_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8x1024 : Shape := ⟨3, ![1024, 8, 1024]⟩
abbrev S8x16x1024x1024 : Shape := ⟨4, ![8, 16, 1024, 1024]⟩
abbrev S3072x1024 : Shape := ⟨2, ![3072, 1024]⟩
abbrev S3072 : Shape := ⟨1, ![3072]⟩
abbrev S_ : Shape := ⟨0, ![]⟩

class Facts : Prop where
  bcast_S_S1024x8x1024 : S_.BroadcastsInDim S1024x8x1024 (![] : Fin 0 → Fin S1024x8x1024.rank)
  reducesTo_S1024x8x1024_S_d0_1_2 : S1024x8x1024.ReducesTo [0, 1, 2] S_
  h_S_ : 0 < S_.numel
  bcast_S_S8x16x1024x1024 : S_.BroadcastsInDim S8x16x1024x1024 (![] : Fin 0 → Fin S8x16x1024x1024.rank)
  reducesTo_S8x16x1024x1024_S_d0_1_2_3 : S8x16x1024x1024.ReducesTo [0, 1, 2, 3] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  main_v18

def fn {F : FTy → Type} [FloatOps F] (main_arg0 : FVec F S1024x8x1024 .f32) (main_arg1 : FVec F S8x16x1024x1024 .f32) (main_arg2 : FVec F S3072x1024 .f32) (main_arg3 : FVec F S3072 .f32) : IVec S_ 1 :=
  let main_v0 : FVec F S1024x8x1024 .f32 := Host.absf main_arg0
  let main_cst : FVec F S_ .f32 := constant S_ .f32 0x7F800000#32
  let main_v1 : FVec F S1024x8x1024 .f32 := broadcastInDim S1024x8x1024 ![] bcast_S_S1024x8x1024 main_cst
  let main_v2 : IVec S1024x8x1024 1 := cmpf .olt main_v0 main_v1
  let main_c : IVec S_ 1 := constantI S_ 1 1#1
  let main_v3 : IVec S_ 1 := (fun x v => Host.reduce IntOp.andi x v reducesTo_S1024x8x1024_S_d0_1_2 h_S_) main_v2 main_c
  let main_v4 : FVec F S8x16x1024x1024 .f32 := Host.absf main_arg1
  let main_cst_0 : FVec F S_ .f32 := constant S_ .f32 0x7F800000#32
  let main_v5 : FVec F S8x16x1024x1024 .f32 := broadcastInDim S8x16x1024x1024 ![] bcast_S_S8x16x1024x1024 main_cst_0
  let main_v6 : IVec S8x16x1024x1024 1 := cmpf .olt main_v4 main_v5
  let main_c_1 : IVec S_ 1 := constantI S_ 1 1#1
  let main_v7 : IVec S_ 1 := (fun x v => Host.reduce IntOp.andi x v reducesTo_S8x16x1024x1024_S_d0_1_2_3 h_S_) main_v6 main_c_1
  let main_v8 : IVec S_ 1 := andi main_v3 main_v7
  let main_v9 : FVec F S3072x1024 .f32 := Host.absf main_arg2
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_v13 main_v16
-- ==== Kernel.lean ====
abbrev S1024x8x1024 : Shape := ⟨3, ![1024, 8, 1024]⟩
abbrev S8x16x1024x1024 : Shape := ⟨4, ![8, 16, 1024, 1024]⟩
abbrev S3072x1024 : Shape := ⟨2, ![3072, 1024]⟩
abbrev S3072 : Shape := ⟨1, ![3072]⟩
abbrev S16x64x3x1024 : Shape := ⟨4, ![16, 64, 3, 1024]⟩
abbrev S16x64x3 : Shape := ⟨3, ![16, 64, 3]⟩
abbrev S16x64x1x1024 : Shape := ⟨4, ![16, 64, 1, 1024]⟩
abbrev S16x64x1024 : Shape := ⟨3, ![16, 64, 1024]⟩
abbrev S1024x1024 : Shape := ⟨2, ![1024, 1024]⟩
abbrev S16x64x1 : Shape := ⟨3, ![16, 64, 1]⟩
abbrev S16x64 : Shape := ⟨2, ![16, 64]⟩
abbrev S1x1024 : Shape := ⟨2, ![1, 1024]⟩
abbrev S8x1024x1024 : Shape := ⟨3, ![8, 1024, 1024]⟩
abbrev S128x1024x64 : Shape := ⟨3, ![128, 1024, 64]⟩
abbrev S1x256x1024 : Shape := ⟨3, ![1, 256, 1024]⟩
abbrev S16x256x64 : Shape := ⟨3, ![16, 256, 64]⟩
abbrev S256x1024 : Shape := ⟨2, ![256, 1024]⟩
abbrev S256x16x64 : Shape := ⟨3, ![256, 16, 64]⟩
abbrev S128x1024x1024 : Shape := ⟨3, ![128, 1024, 1024]⟩
abbrev S1x1024x64 : Shape := ⟨3, ![1, 1024, 64]⟩
abbrev S1x1024x1024 : Shape := ⟨3, ![1, 1024, 1024]⟩
abbrev S1024x64 : Shape := ⟨2, ![1024, 64]⟩
abbrev S1024 : Shape := ⟨1, ![1024]⟩
abbrev S1024x1 : Shape := ⟨2, ![1024, 1]⟩

abbrev nBuf : Space → Nat
  | .hbm => 30
  | .vmem => 22
  | .smem => 0
  | _ => 0

abbrev bufTy : (tb : Table) → Fin (tcTables nBuf tb) → BufTy
  | .hbm, ⟨0, _⟩ => ⟨S1024x8x1024, .f32⟩
  | .hbm, ⟨1, _⟩ => ⟨S8x16x1024x1024, .f32⟩
  | .hbm, ⟨2, _⟩ => ⟨S3072x1024, .f32⟩
  | .hbm, ⟨3, _⟩ => ⟨S3072, .f32⟩
  | .hbm, ⟨4, _⟩ => ⟨S16x64x3x1024, .f32⟩
  | .hbm, ⟨5, _⟩ => ⟨S16x64x3, .f32⟩
  | .hbm, ⟨6, _⟩ => ⟨S16x64x1x1024, .f32⟩
  | .hbm, ⟨7, _⟩ => ⟨S16x64x1024, .f32⟩
  | .hbm, ⟨8, _⟩ => ⟨S1024x1024, .f32⟩
  | .hbm, ⟨9, _⟩ => ⟨S16x64x1x1024, .f32⟩
  | .hbm, ⟨10, _⟩ => ⟨S16x64x1024, .f32⟩
  | .hbm, ⟨11, _⟩ => ⟨S1024x1024, .f32⟩
  | .hbm, ⟨12, _⟩ => ⟨S16x64x1x1024, .f32⟩
  | .hbm, ⟨13, _⟩ => ⟨S16x64x1024, .f32⟩
  | .hbm, ⟨14, _⟩ => ⟨S1024x1024, .f32⟩
  | .hbm, ⟨15, _⟩ => ⟨S16x64x1, .f32⟩
  | .hbm, ⟨16, _⟩ => ⟨S16x64, .f32⟩
  | .hbm, ⟨17, _⟩ => ⟨S1x1024, .f32⟩
  | .hbm, ⟨18, _⟩ => ⟨S16x64x1, .f32⟩
  | .hbm, ⟨19, _⟩ => ⟨S16x64, .f32⟩
  | .hbm, ⟨20, _⟩ => ⟨S1x1024, .f32⟩
  | .hbm, ⟨21, _⟩ => ⟨S16x64x1, .f32⟩
  | .hbm, ⟨22, _⟩ => ⟨S16x64, .f32⟩
  | .hbm, ⟨23, _⟩ => ⟨S1x1024, .f32⟩
  | .hbm, ⟨24, _⟩ => ⟨S8x1024x1024, .f32⟩
  | .hbm, ⟨25, _⟩ => ⟨S128x1024x64, .f32⟩
  | .hbm, ⟨26, _⟩ => ⟨S128x1024x64, .f32⟩
  | .hbm, ⟨27, _⟩ => ⟨S128x1024x64, .f32⟩
  | .hbm, ⟨28, _⟩ => ⟨S128x1024x1024, .f32⟩
  | .hbm, ⟨29, _⟩ => ⟨S128x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S16x256x64, .f32⟩
  | .local _ .vmem, ⟨9, _⟩ => ⟨S16x256x64, .f32⟩
  | .local _ .vmem, ⟨10, _⟩ => ⟨S16x256x64, .f32⟩
  | .local _ .vmem, ⟨11, _⟩ => ⟨S16x256x64, .f32⟩
  | .local _ .vmem, ⟨12, _⟩ => ⟨S16x256x64, .f32⟩
  | .local _ .vmem, ⟨13, _⟩ => ⟨S16x256x64, .f32⟩
  | .local _ .vmem, ⟨14, _⟩ => ⟨S1x1024x64, .f32⟩
  | .local _ .vmem, ⟨15, _⟩ => ⟨S1x1024x64, .f32⟩
  | .local _ .vmem, ⟨16, _⟩ => ⟨S1x1024x64, .f32⟩
  | .local _ .vmem, ⟨17, _⟩ => ⟨S1x1024x64, .f32⟩
  | .local _ .vmem, ⟨18, _⟩ => ⟨S1x1024x1024, .f32⟩
  | .local _ .vmem, ⟨19, _⟩ => ⟨S1x1024x1024, .f32⟩
  | .local _ .vmem, ⟨20, _⟩ => ⟨S1x1024x1024, .f32⟩
  | .local _ .vmem, ⟨21, _⟩ => ⟨S1x1024x1024, .f32⟩
  | _, _ => ⟨S1024x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21_0 : Ref sig .tc := ⟨.hbm, 25, rfl⟩
abbrev main_v21_1 : Ref sig .tc := ⟨.hbm, 26, rfl⟩
abbrev main_v21_2 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S3072x1024_S16x64x3x1024 : S3072x1024.ShapeCasts S16x64x3x1024
  shapeCasts_S3072_S16x64x3 : S3072.ShapeCasts S16x64x3
  slices_S16x64x3x1024_S16x64x1x1024_0_0_0_0 : S16x64x3x1024.Slices ![0, 0, 0, 0] S16x64x1x1024
  shapeCasts_S16x64x1x1024_S16x64x1024 : S16x64x1x1024.ShapeCasts S16x64x1024
  shapeCasts_S16x64x1024_S1024x1024 : S16x64x1024.ShapeCasts S1024x1024
  slices_S16x64x3x1024_S16x64x1x1024_0_0_1_0 : S16x64x3x1024.Slices ![0, 0, 1, 0] S16x64x1x1024
  slices_S16x64x3x1024_S16x64x1x1024_0_0_2_0 : S16x64x3x1024.Slices ![0, 0, 2, 0] S16x64x1x1024
  slices_S16x64x3_S16x64x1_0_0_0 : S16x64x3.Slices ![0, 0, 0] S16x64x1
  shapeCasts_S16x64x1_S16x64 : S16x64x1.ShapeCasts S16x64
  shapeCasts_S16x64_S1x1024 : S16x64.ShapeCasts S1x1024
  slices_S16x64x3_S16x64x1_0_0_1 : S16x64x3.Slices ![0, 0, 1] S16x64x1
  slices_S16x64x3_S16x64x1_0_0_2 : S16x64x3.Slices ![0, 0, 2] S16x64x1
  transposes_S1024x8x1024_S8x1024x1024_1_0_2 : S1024x8x1024.Transposes [1, 0, 2] S8x1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S256x16x64 : S256x1024.ShapeCasts S256x16x64
  transposes_S256x16x64_p1_0_2_S16x256x64 : S256x16x64.Transposes [1, 0, 2] S16x256x64
  inb_S16x256x64_S16x256x64_0_0_0 : ∀ a, (![0, 0, 0] : Fin 3 → Nat) a + S16x256x64.size a ≤ S16x256x64.size a
  h_S16x256x64 : 0 < S16x256x64.numel
  shapeCasts_S8x16x1024x1024_S128x1024x1024 : S8x16x1024x1024.ShapeCasts S128x1024x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S256x1024_S1024x1024_S256x1024_1_1_0_0_n_n_wf : DotDims.WF S256x1024 S1024x1024 S256x1024 [1] [1] [0] [0] [] []
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x1024x1024.size a
  hwx0_0 : ∀ i : grid0.Coords, EltTy.bits .f32 = 32 ∨ (Rect.block (s := S8x1024x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x256x64.size a ≤ S128x1024x64.size a
  hwx0_7 : ∀ i : grid0.Coords, EltTy.bits .f32 = 32 ∨ (Rect.block (s := S128x1024x64) S16x256x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x256x64.size a ≤ S128x1024x64.size a
  hwx0_8 : ∀ i : grid0.Coords, EltTy.bits .f32 = 32 ∨ (Rect.block (s := S128x1024x64) S16x256x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x256x64.size a ≤ S128x1024x64.size a
  hwx0_9 : ∀ i : grid0.Coords, EltTy.bits .f32 = 32 ∨ (Rect.block (s := S128x1024x64) S16x256x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S128x1024x64.size a
  hwx1_0 : ∀ i : grid1.Coords, EltTy.bits .f32 = 32 ∨ (Rect.block (s := S128x1024x64) S1x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S128x1024x64.size a
  hwx1_1 : ∀ i : grid1.Coords, EltTy.bits .f32 = 32 ∨ (Rect.block (s := S128x1024x64) S1x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S128x1024x1024.size a
  hwx1_2 : ∀ i : grid1.Coords, EltTy.bits .f32 = 32 ∨ (Rect.block (s := S128x1024x1024) S1x1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S128x1024x1024.size a
  hwx1_3 : ∀ i : grid1.Coords, EltTy.bits .f32 = 32 ∨ (Rect.block (s := S128x1024x1024) S1x1024x1024.size (cc1_transform_3 i) (hinb1_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v20) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_0) S16x256x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_1) S16x256x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v21_2) S16x256x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v21_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21_1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024x8x1024 : Shape := ⟨3, ![1024, 8, 1024]⟩
abbrev S8x16x1024x1024 : Shape := ⟨4, ![8, 16, 1024, 1024]⟩
abbrev S3072x1024 : Shape := ⟨2, ![3072, 1024]⟩
abbrev S3072 : Shape := ⟨1, ![3072]⟩
abbrev S1024x8x3072 : Shape := ⟨3, ![1024, 8, 3072]⟩
abbrev S1x1x3072 : Shape := ⟨3, ![1, 1, 3072]⟩
abbrev S1024x128x64x3 : Shape := ⟨4, ![1024, 128, 64, 3]⟩
abbrev S3x128x1024x64 : Shape := ⟨4, ![3, 128, 1024, 64]⟩
abbrev S1x128x1024x64 : Shape := ⟨4, ![1, 128, 1024, 64]⟩
abbrev S128x1024x64 : Shape := ⟨3, ![128, 1024, 64]⟩
abbrev S128x1024x1024 : Shape := ⟨3, ![128, 1024, 1024]⟩
abbrev S_ : Shape := ⟨0, ![]⟩
abbrev S128x1024 : Shape := ⟨2, ![128, 1024]⟩
abbrev S128x1024x1 : Shape := ⟨3, ![128, 1024, 1]⟩

abbrev nBuf : Space → Nat
  | .hbm => 36
  | .vmem => 0
  | .smem => 0
  | _ => 0

abbrev bufTy : (tb : Table) → Fin (tcTables nBuf tb) → BufTy
  | .hbm, ⟨0, _⟩ => ⟨S1024x8x1024, .f32⟩
  | .hbm, ⟨1, _⟩ => ⟨S8x16x1024x1024, .f32⟩
  | .hbm, ⟨2, _⟩ => ⟨S3072x1024, .f32⟩
  | .hbm, ⟨3, _⟩ => ⟨S3072, .f32⟩
  | .hbm, ⟨4, _⟩ => ⟨S1024x8x3072, .f32⟩
  | .hbm, ⟨5, _⟩ => ⟨S1x1x3072, .f32⟩
  | .hbm, ⟨6, _⟩ => ⟨S1024x8x3072, .f32⟩
  | .hbm, ⟨7, _⟩ => ⟨S1024x8x3072, .f32⟩
  | .hbm, ⟨8, _⟩ => ⟨S1024x128x64x3, .f32⟩
  | .hbm, ⟨9, _⟩ => ⟨S3x128x1024x64, .f32⟩
  | .hbm, ⟨10, _⟩ => ⟨S1x128x1024x64, .f32⟩
  | .hbm, ⟨11, _⟩ => ⟨S128x1024x64, .f32⟩
  | .hbm, ⟨12, _⟩ => ⟨S1x128x1024x64, .f32⟩
  | .hbm, ⟨13, _⟩ => ⟨S128x1024x64, .f32⟩
  | .hbm, ⟨14, _⟩ => ⟨S1x128x1024x64, .f32⟩
  | .hbm, ⟨15, _⟩ => ⟨S128x1024x64, .f32⟩
  | .hbm, ⟨16, _⟩ => ⟨S128x1024x1024, .f32⟩
  | .hbm, ⟨17, _⟩ => ⟨S128x1024x1024, .f32⟩
  | .hbm, ⟨18, _⟩ => ⟨S_, .f32⟩
  | .hbm, ⟨19, _⟩ => ⟨S128x1024x1024, .f32⟩
  | .hbm, ⟨20, _⟩ => ⟨S128x1024x1024, .f32⟩
  | .hbm, ⟨21, _⟩ => ⟨S128x1024x1024, .f32⟩
  | .hbm, ⟨22, _⟩ => ⟨S_, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024x1, .f32⟩
  | .hbm, ⟨28, _⟩ => ⟨S128x1024x1024, .f32⟩
  | .hbm, ⟨29, _⟩ => ⟨S128x1024x1024, .f32⟩
  | .hbm, ⟨30, _⟩ => ⟨S128x1024x1024, .f32⟩
  | .hbm, ⟨31, _⟩ => ⟨S_, .f32⟩
  | .hbm, ⟨32, _⟩ => ⟨S128x1024, .f32⟩
  | .hbm, ⟨33, _⟩ => ⟨S128x1024x1, .f32⟩
  | .hbm, ⟨34, _⟩ => ⟨S128x1024x1024, .f32⟩
  | .hbm, ⟨35, _⟩ => ⟨S128x1024x1024, .f32⟩
  | _, _ => ⟨S1024x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S1024x8x3072_0_1_2 : S1x1x3072.BroadcastsInDim S1024x8x3072 (![0, 1, 2] : Fin 3 → Fin S1024x8x3072.rank)
  shapeCasts_S1024x8x3072_S1024x128x64x3 : S1024x8x3072.ShapeCasts S1024x128x64x3
  transposes_S1024x128x64x3_S3x128x1024x64_3_1_0_2 : S1024x128x64x3.Transposes [3, 1, 0, 2] S3x128x1024x64
  slices_S3x128x1024x64_S1x128x1024x64_0_0_0_0 : S3x128x1024x64.Slices ![0, 0, 0, 0] S1x128x1024x64
  shapeCasts_S1x128x1024x64_S128x1024x64 : S1x128x1024x64.ShapeCasts S128x1024x64
  slices_S3x128x1024x64_S1x128x1024x64_1_0_0_0 : S3x128x1024x64.Slices ![1, 0, 0, 0] S1x128x1024x64
  slices_S3x128x1024x64_S1x128x1024x64_2_0_0_0 : S3x128x1024x64.Slices ![2, 0, 0, 0] S1x128x1024x64
  shapeCasts_S8x16x1024x1024_S128x1024x1024 : S8x16x1024x1024.ShapeCasts S128x1024x1024
  bcast_S_S128x1024x1024 : S_.BroadcastsInDim S128x1024x1024 (![] : Fin 0 → Fin S128x1024x1024.rank)
  reducesTo_S128x1024x1024_S128x1024_d2 : S128x1024x1024.ReducesTo [2] S128x1024
  h_S_ : 0 < S_.numel
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024x1_S128x1024x1024_0_1_2 : S128x1024x1.BroadcastsInDim S128x1024x1024 (![0, 1, 2] : Fin 3 → Fin S128x1024x1024.rank)
  dot_S1024x8x1024_S3072x1024_S1024x8x3072_2_1_01_0_n_n_wf : DotDims.WF S1024x8x1024 S3072x1024 S1024x8x3072 [2] [1] [0, 1] [0] [] []
  dot_S128x1024x64_S128x1024x64_S128x1024x1024_2_2_1_1_0_0_wf : DotDims.WF S128x1024x64 S128x1024x64 S128x1024x1024 [2] [2] [1] [1] [0] [0]

variable [Facts₀]

def dot_S1024x8x1024_S3072x1024_S1024x8x3072_2_1_01_0_n_n : DotDims S1024x8x1024 S3072x1024 S1024x8x3072 where
  lhsContracting := [2]
  rhsContracting := [1]
  lhsNonContracting := [0, 1]
  rhsNonContracting := [0]
  lhsBatch := []
  rhsBatch := []
  wf := dot_S1024x8x1024_S3072x1024_S1024x8x3072_2_1_01_0_n_n_wf
def dot_S128x1024x64_S128x1024x64_S128x1024x1024_2_2_1_1_0_0 : DotDims S128x1024x64 S128x1024x64 S128x1024x1024 where
  lhsContracting := [2]
  rhsContracting := [2]
  lhsNonContracting := [1]
  rhsNonContracting := [1]
  lhsBatch := [0]
  rhsBatch := [0]
  wf := dot_S128x1024x64_S128x1024x64_S128x1024x1024_2_2_1_1_0_0_wf

class Facts : Prop extends Facts₀ where

variable [Facts]
-- ==== Proof.AttnSpec.lean ====
/-
  The mathematics both programs compute, stated once over literal shapes and the extended reals, with no program
  in sight.

  * `headProj X W b`: a linear projection followed by a split into heads. For the batch-major input
    `X[β, s, e]`, a weight matrix `W[col, e]` and a bias row `b[0, col]`, the entry at
    (head row `η = β·16 + h`, position `s`, head coordinate `d`) is `Σ_e X[β, s, e] · W[h·64 + d, e] + b[0, h·64 + d]`.
  * `attnProbs Q K B`: scaled dot-product scores with an additive bias, normalised along the last axis by the
    max-shifted softmax: with `x[η, s, t] = B[η, s, t] + 2⁻³ · Σ_d Q[η, s, d] · K[η, t, d]` and `μ[η, s] = max_t x[η, s, t]`
    (the fold of `max` from −∞), the entry is `exp (x[η, s, t] − μ[η, s]) / Σ_u exp (x[η, s, u] − μ[η, s])`.
-/
import Idealize.ShloMosaic.PureOps.Ideal
import Idealize.ShloMosaic.Lib.ValueIdx

noncomputable section

namespace Cert.AttnSpec

open Idealize.ShloMosaic Idealize.ShloMosaic.ValueIdx

/-- The word of −∞ both maxima start from, and the word of the scale 2⁻³ = 64^(−1/2). -/
abbrev negInf : EReal := Ideal.ofBits .f32 0xFF800000#32
abbrev scale : EReal := Ideal.ofBits .f32 0x3E000000#32

/-- The maximum of a row of 1024 entries, folded from −∞. -/
def rowMax (r : Fin 1024 → EReal) : EReal := (Finset.univ : Finset (Fin 1024)).fold max negInf r

/-- The max-shifted softmax of a row, at position `t`. -/
def softmaxRow (r : Fin 1024 → EReal) (t : Fin 1024) : EReal :=
  Ideal.div (Ideal.exp (r t - rowMax r)) (∑ u : Fin 1024, Ideal.exp (r u - rowMax r))

/-- Head row `η = β·16 + h` belongs to batch entry `β = η / 16`. -/
def batchOf (η : Fin 128) : Fin 8 := ⟨η.val / 16, by have := η.isLt; omega⟩
/-- Head `h = η % 16`, coordinate `d`: column `h·64 + d` of the projection. -/
def colOf (η : Fin 128) (d : Fin 64) : Fin 1024 := ⟨η.val % 16 * 64 + d.val, by have := η.isLt; have := d.isLt; omega⟩

/-- The projection split into heads, at explicit coordinates. -/
def headProjAt (X : (⟨3, ![8, 1024, 1024]⟩ : Shape).Idx → EReal) (W : (⟨2, ![1024, 1024]⟩ : Shape).Idx → EReal)
    (b : (⟨2, ![1, 1024]⟩ : Shape).Idx → EReal) (η : Fin 128) (s : Fin 1024) (d : Fin 64) : EReal :=
  (∑ e : Fin 1024, X (ix3 (batchOf η) s e) * W (ix2 (colOf η d) e)) + b (ix2 (0 : Fin 1) (colOf η d))

/-- The projection split into heads, as one array `[128, 1024, 64]`. -/
def headProj (X : (⟨3, ![8, 1024, 1024]⟩ : Shape).Idx → EReal) (W : (⟨2, ![1024, 1024]⟩ : Shape).Idx → EReal)
    (b : (⟨2, ![1, 1024]⟩ : Shape).Idx → EReal) : (⟨3, ![128, 1024, 64]⟩ : Shape).Idx → EReal :=
  fun i => headProjAt X W b ⟨(i 0).val, (i 0).isLt⟩ ⟨(i 1).val, (i 1).isLt⟩ ⟨(i 2).val, (i 2).isLt⟩

/-- The biased, scaled score of query position `s` against key position `t` in head row `η`. -/
def scoreAt (Q K : (⟨3, ![128, 1024, 64]⟩ : Shape).Idx → EReal) (B : (⟨3, ![128, 1024, 1024]⟩ : Shape).Idx → EReal)
    (η : Fin 128) (s t : Fin 1024) : EReal :=
  B (ix3 η s t) + scale * ∑ d : Fin 64, Q (ix3 η s d) * K (ix3 η t d)

/-- The attention probabilities, as one array `[128, 1024, 1024]`. -/
def attnProbs (Q K : (⟨3, ![128, 1024, 64]⟩ : Shape).Idx → EReal) (B : (⟨3, ![128, 1024, 1024]⟩ : Shape).Idx → EReal) :
    (⟨3, ![128, 1024, 1024]⟩ : Shape).Idx → EReal :=
  fun i => softmaxRow (fun u => scoreAt Q K B ⟨(i 0).val, (i 0).isLt⟩ ⟨(i 1).val, (i 1).isLt⟩ u) ⟨(i 2).val, (i 2).isLt⟩

/-- −∞ is the unit of `max`. -/
theorem max_negInf (y : EReal) : max negInf y = y := by
  show max (Ideal.ofBits .f32 0xFF800000#32) y = y
  simp [Ideal.ofBits, Ideal.ieee]

end Cert.AttnSpec

end
-- ==== Proof.AttnHost.lean ====
/-
  The kernel program's parameter plumbing, as pure functions of the argument arrays: the host operations that
  re-slice the interleaved projection weights `W[(h·64 + d)·3 + j, e]` and bias `b[(h·64 + d)·3 + j]` into the three
  per-head-ordered matrices `W_j[h·64 + d, e]` and rows `b_j[0, h·64 + d]` (j = 0, 1, 2 for query, key, value),
  bring the features to batch-major order `X[β, s, e] = feats[s, β, e]`, and flatten the bias's two leading axes.
  Each is the composition of reshapes, a unit-width slice and a transpose exactly as the program applies them.
-/
import proofs.«175414_j29652454212057_2_alg».proof.Proof.Gen.KernelIdeal
import Idealize.ShloMosaic.PureOps.Ideal

noncomputable section

namespace Cert.AttnHost

open Idealize.ShloMosaic Cert.KernelIdeal Cert.KernelIdeal.Gen

/-- The features in batch-major order. -/
def featsT (x0 : FVec Ideal S1024x8x1024 .f32) : FVec Ideal S8x1024x1024 .f32 :=
  transpose S8x1024x1024 [1, 0, 2] x0 transposes_S1024x8x1024_S8x1024x1024_1_0_2

/-- The interleaved weights with the (head, coordinate, which-of-three) axes split out. -/
def wSplit (x2 : FVec Ideal S3072x1024 .f32) : FVec Ideal S16x64x3x1024 .f32 :=
  shapeCast S16x64x3x1024 x2 shapeCasts_S3072x1024_S16x64x3x1024

/-- The query, key and value weight matrices. -/
def wq (x2 : FVec Ideal S3072x1024 .f32) : FVec Ideal S1024x1024 .f32 :=
  shapeCast S1024x1024 (shapeCast S16x64x1024 (extractStridedSlice S16x64x1x1024 ![0, 0, 0, 0] (wSplit x2)
    slices_S16x64x3x1024_S16x64x1x1024_0_0_0_0) shapeCasts_S16x64x1x1024_S16x64x1024) shapeCasts_S16x64x1024_S1024x1024
def wk (x2 : FVec Ideal S3072x1024 .f32) : FVec Ideal S1024x1024 .f32 :=
  shapeCast S1024x1024 (shapeCast S16x64x1024 (extractStridedSlice S16x64x1x1024 ![0, 0, 1, 0] (wSplit x2)
    slices_S16x64x3x1024_S16x64x1x1024_0_0_1_0) shapeCasts_S16x64x1x1024_S16x64x1024) shapeCasts_S16x64x1024_S1024x1024
def wv (x2 : FVec Ideal S3072x1024 .f32) : FVec Ideal S1024x1024 .f32 :=
  shapeCast S1024x1024 (shapeCast S16x64x1024 (extractStridedSlice S16x64x1x1024 ![0, 0, 2, 0] (wSplit x2)
    slices_S16x64x3x1024_S16x64x1x1024_0_0_2_0) shapeCasts_S16x64x1x1024_S16x64x1024) shapeCasts_S16x64x1024_S1024x1024

/-- The interleaved bias with its axes split out. -/
def bSplit (x3 : FVec Ideal S3072 .f32) : FVec Ideal S16x64x3 .f32 :=
  shapeCast S16x64x3 x3 shapeCasts_S3072_S16x64x3

/-- The query, key and value bias rows. -/
def bq (x3 : FVec Ideal S3072 .f32) : FVec Ideal S1x1024 .f32 :=
  shapeCast S1x1024 (shapeCast S16x64 (extractStridedSlice S16x64x1 ![0, 0, 0] (bSplit x3)
    slices_S16x64x3_S16x64x1_0_0_0) shapeCasts_S16x64x1_S16x64) shapeCasts_S16x64_S1x1024
def bk (x3 : FVec Ideal S3072 .f32) : FVec Ideal S1x1024 .f32 :=
  shapeCast S1x1024 (shapeCast S16x64 (extractStridedSlice S16x64x1 ![0, 0, 1] (bSplit x3)
    slices_S16x64x3_S16x64x1_0_0_1) shapeCasts_S16x64x1_S16x64) shapeCasts_S16x64_S1x1024
def bv (x3 : FVec Ideal S3072 .f32) : FVec Ideal S1x1024 .f32 :=
  shapeCast S1x1024 (shapeCast S16x64 (extractStridedSlice S16x64x1 ![0, 0, 2] (bSplit x3)
    slices_S16x64x3_S16x64x1_0_0_2) shapeCasts_S16x64x1_S16x64) shapeCasts_S16x64_S1x1024

/-- The attention bias with batch and head flattened into one axis. -/
def biasFlat (x1 : FVec Ideal S8x16x1024x1024 .f32) : FVec Ideal S128x1024x1024 .f32 :=
  shapeCast S128x1024x1024 x1 shapeCasts_S8x16x1024x1024_S128x1024x1024

end Cert.AttnHost

end
-- ==== Proof.AttnRef.lean ====
/-
  The reference program's results read as the shared specification.

  * The attention probabilities: the reference forms the scores `x[η, s, t] = B[η, s, t] + 2⁻³ · Σ_d Q[η, s, d] · K[η, t, d]`
    from its own query, key and bias arrays, takes the row maximum `μ[η, s]` folded from −∞ (a second maximum with −∞
    changes nothing), exponentiates `x − μ`, sums the exponentials along the row starting from zero, and divides. Read
    entry by entry this is the max-shifted softmax of the score row: `attnProbs Q K B`.
  * The query, key and value arrays: the reference projects the features with the interleaved weights and bias, reshapes the
    result `[1024, 8, 3072]` to `[1024, 128, 64, 3]` and transposes to `[3, 128, 1024, 64]`; slice j at (η, s, d) is flat
    position `((s·128 + η)·64 + d)·3 + j` of the projected array, that is (s, η / 16, (η % 16 · 64 + d)·3 + j). The same
    entry is what the head-split projection of the batch-major features by the re-sliced weights and bias reads:
    `Σ_e feats[s, η / 16, e] · W[(η % 16 · 64 + d)·3 + j, e] + b[(η % 16 · 64 + d)·3 + j]`.
  * The flattened bias: the same reshape of the same argument on both sides.
-/
import proofs.«175414_j29652454212057_2_alg».proof.Proof.Gen.ReferenceIdeal.Read
import proofs.«175414_j29652454212057_2_alg».proof.Proof.AttnSpec
import proofs.«175414_j29652454212057_2_alg».proof.Proof.AttnHost

noncomputable section

namespace Cert.AttnRef

open Idealize.ShloMosaic Idealize.ShloMosaic.ValueIdx Cert.ReferenceIdeal Cert.ReferenceIdeal.Gen Cert.ReferenceIdeal.Read

/-! ## The attention probabilities -/

/-- The index over (η, s) with the reduced coordinate `k` put back is (η, s, k). -/
private theorem lift_ix3 (h : (⟨3, ![128, 1024, 1024]⟩ : Shape).Reduces [2] (⟨2, ![128, 1024]⟩ : Shape)) (η : Fin 128) (s : Fin 1024)
    (k : Fin ((⟨3, ![128, 1024, 1024]⟩ : Shape).size 2)) : h.lift (ix2 η s) k = ix3 η s (⟨k.val, k.isLt⟩ : Fin 1024) := by
  funext c; apply Fin.ext
  fin_cases c <;> rfl

/-- The maximum over the last axis, folded from −∞, at (η, s): the row maximum of the row (η, s). -/
private theorem reduceMax_apply (x : FVec Ideal S128x1024x1024 .f32) (η : Fin 128) (s : Fin 1024) :
    Host.reduce FloatOps.maximumf x (val_main_cst_0 (F := Ideal)) reducesTo_S128x1024x1024_S128x1024_d2 h_S_ (ix2 η s)
      = Cert.AttnSpec.rowMax (fun t => x (ix3 η s t)) := by
  have h : S128x1024x1024.Reduces [2] S128x1024 := by decide
  rw [Host.reduce_eq_fold_single FloatOps.maximumf x _ reducesTo_S128x1024x1024_S128x1024_d2 h h_S_]
  have hf : (x ∘ h.lift (ix2 η s)) = fun k : Fin 1024 => x (ix3 η s k) := funext fun k => congrArg x (lift_ix3 h η s k)
  rw [hf]
  rfl

/-- The score array of the reference at (η, s, t): the bias plus the scaled dot product of query row s and key row t. -/
private theorem score_apply (x0 : FVec Ideal S1024x8x1024 .f32) (x1 : FVec Ideal S8x16x1024x1024 .f32) (x2 : FVec Ideal S3072x1024 .f32) (x3 : FVec Ideal S3072 .f32) (η : Fin 128) (s t : Fin 1024) :
    val_main_v16 (F := Ideal) x0 x1 x2 x3 (ix3 η s t)
      = Cert.AttnSpec.scoreAt (val_main_v7 (F := Ideal) x0 x2 x3) (val_main_v9 (F := Ideal) x0 x2 x3) (val_main_v12 (F := Ideal) x1) η s t := by
  rw [val_main_v16_apply, val_main_v15_apply, val_main_v14_apply, val_main_cst_apply, val_main_v13_apply]
  generalize val_main_v7 (F := Ideal) x0 x2 x3 = Q
  generalize val_main_v9 (F := Ideal) x0 x2 x3 = K
  generalize val_main_v12 (F := Ideal) x1 = B
  have hl : ∀ k : Fin 64, lidx_main_v13 (ix3 η s t) k = ix3 η s k := fun k => funext fun a => by
    match a with | ⟨0, _⟩ => rfl | ⟨1, _⟩ => rfl | ⟨2, _⟩ => rfl
  have hr : ∀ k : Fin 64, ridx_main_v13 (ix3 η s t) k = ix3 η t k := fun k => funext fun a => by
    match a with | ⟨0, _⟩ => rfl | ⟨1, _⟩ => rfl | ⟨2, _⟩ => rfl
  simp only [hl, hr]
  rfl

/-- The broadcast row maximum at (η, s, u): the maximum of the score row (η, s), whatever u. -/
private theorem shift_apply (x0 : FVec Ideal S1024x8x1024 .f32) (x1 : FVec Ideal S8x16x1024x1024 .f32) (x2 : FVec Ideal S3072x1024 .f32) (x3 : FVec Ideal S3072 .f32) (η : Fin 128) (s u : Fin 1024) :
    val_main_v21 (F := Ideal) x0 x1 x2 x3 (ix3 η s u)
      = Cert.AttnSpec.rowMax (fun t => val_main_v16 (F := Ideal) x0 x1 x2 x3 (ix3 η s t)) := by
  rw [val_main_v21_apply, val_main_v20_apply]
  have hi : idx_main_v20 (idx_main_v21 (ix3 η s u)) = ix2 η s := funext fun a => by
    match a with | ⟨0, _⟩ => rfl | ⟨1, _⟩ => rfl
  rw [hi, val_main_v19_apply, val_main_v18_apply, val_main_cst_1_apply]
  unfold val_main_v17
  rw [reduceMax_apply]
  exact Cert.AttnSpec.max_negInf _

/-- The exponential of the shifted score at (η, s, u). -/
private theorem exp_apply (x0 : FVec Ideal S1024x8x1024 .f32) (x1 : FVec Ideal S8x16x1024x1024 .f32) (x2 : FVec Ideal S3072x1024 .f32) (x3 : FVec Ideal S3072 .f32) (η : Fin 128) (s u : Fin 1024) :
    val_main_v23 (F := Ideal) x0 x1 x2 x3 (ix3 η s u)
      = Ideal.exp (val_main_v16 (F := Ideal) x0 x1 x2 x3 (ix3 η s u)
          - Cert.AttnSpec.rowMax (fun t => val_main_v16 (F := Ideal) x0 x1 x2 x3 (ix3 η s t))) := by
  rw [val_main_v23_apply, val_main_v22_apply, shift_apply]
  rfl

/-- The broadcast normaliser at (η, s, t): the sum of the exponentials along the row (η, s). -/
private theorem denom_apply (x0 : FVec Ideal S1024x8x1024 .f32) (x1 : FVec Ideal S8x16x1024x1024 .f32) (x2 : FVec Ideal S3072x1024 .f32) (x3 : FVec Ideal S3072 .f32) (η : Fin 128) (s t : Fin 1024) :
    val_main_v26 (F := Ideal) x0 x1 x2 x3 (ix3 η s t) = ∑ u : Fin 1024, val_main_v23 (F := Ideal) x0 x1 x2 x3 (ix3 η s u) := by
  rw [val_main_v26_apply, val_main_v25_apply]
  have hi : idx_main_v25 (idx_main_v26 (ix3 η s t)) = ix2 η s := funext fun a => by
    match a with | ⟨0, _⟩ => rfl | ⟨1, _⟩ => rfl
  rw [hi, val_main_v24_apply, val_main_cst_2_apply, Ideal.ofBits_def, Ideal.ofBits_zero_f32, zero_add]
  refine Finset.sum_congr rfl fun k _ => ?_
  exact congrArg _ (funext fun a => by match a with | ⟨0, _⟩ => rfl | ⟨1, _⟩ => rfl | ⟨2, _⟩ => rfl)

/-- The reference's result at (η, s, t) is the max-shifted softmax of its score row (η, s), at t. -/
private theorem probs_apply (x0 : FVec Ideal S1024x8x1024 .f32) (x1 : FVec Ideal S8x16x1024x1024 .f32) (x2 : FVec Ideal S3072x1024 .f32) (x3 : FVec Ideal S3072 .f32) (η : Fin 128) (s t : Fin 1024) :
    val_main_v27 (F := Ideal) x0 x1 x2 x3 (ix3 η s t)
      = Cert.AttnSpec.softmaxRow (fun u => val_main_v16 (F := Ideal) x0 x1 x2 x3 (ix3 η s u)) t := by
  rw [val_main_v27_apply, denom_apply]
  simp only [exp_apply]
  rfl

/-- The reference's attention probabilities are the specification's, of its own query, key and bias arrays. -/
theorem ref_probs (x0 : FVec Ideal S1024x8x1024 .f32) (x1 : FVec Ideal S8x16x1024x1024 .f32) (x2 : FVec Ideal S3072x1024 .f32) (x3 : FVec Ideal S3072 .f32) :
    val_main_v27 (F := Ideal) x0 x1 x2 x3
      = Cert.AttnSpec.attnProbs (val_main_v7 (F := Ideal) x0 x2 x3) (val_main_v9 (F := Ideal) x0 x2 x3) (val_main_v12 (F := Ideal) x1) := by
  funext i
  obtain ⟨η, s, t, rfl⟩ : ∃ (η : Fin 128) (s t : Fin 1024), i = ix3 η s t := ⟨i 0, i 1, i 2, eq_ix3 i⟩
  rw [probs_apply]
  simp only [score_apply]
  rfl

/-! ## The projections

Both programs compute, at head row η = β·16 + h, position s and head coordinate d, the sum over e of
`feats[s, β, e] · W[(h·64 + d)·3 + j, e]` plus `b[(h·64 + d)·3 + j]`, for j = 0, 1, 2 (query, key, value). The reference
reaches it by reshaping the projected array `[1024, 8, 3072]` to `[1024, 128, 64, 3]` and transposing; the parameter
plumbing reaches it by re-slicing the weights and the bias. -/

/-- The interleaved weights re-sliced to the matrix of projection j, at (column c, e): row c·3 + j of the interleaved matrix. -/
private theorem wsel_apply (x2 : (⟨2, ![3072, 1024]⟩ : Shape).Idx → EReal) (j : Nat) (hj : j < 3)
    (h0 : (⟨2, ![3072, 1024]⟩ : Shape).ShapeCasts ⟨4, ![16, 64, 3, 1024]⟩)
    (h1 : (⟨4, ![16, 64, 3, 1024]⟩ : Shape).Slices ![0, 0, j, 0] ⟨4, ![16, 64, 1, 1024]⟩)
    (h2 : (⟨4, ![16, 64, 1, 1024]⟩ : Shape).ShapeCasts ⟨3, ![16, 64, 1024]⟩)
    (h3 : (⟨3, ![16, 64, 1024]⟩ : Shape).ShapeCasts ⟨2, ![1024, 1024]⟩) (c e : Fin 1024) :
    shapeCast ⟨2, ![1024, 1024]⟩ (shapeCast ⟨3, ![16, 64, 1024]⟩ (extractStridedSlice ⟨4, ![16, 64, 1, 1024]⟩ ![0, 0, j, 0]
      (shapeCast ⟨4, ![16, 64, 3, 1024]⟩ x2 h0) h1) h2) h3 (ix2 c e)
      = x2 (ix2 (⟨c.val * 3 + j, by have := c.isLt; omega⟩ : Fin 3072) e) := by
  have hc := c.isLt
  refine (shapeCast_apply _ h3 (ix2 c e)
    (ix3 (⟨c.val / 64, by omega⟩ : Fin 16) (⟨c.val % 64, by omega⟩ : Fin 64) e) ?_).trans ?_
  · rewrite [Shape.rowMajor_val_three, Shape.rowMajor_val_two]
    show (c.val / 64 * 64 + c.val % 64) * 1024 + e.val = c.val * 1024 + e.val
    omega
  refine (shapeCast_apply _ h2 _
    (ix4 (⟨c.val / 64, by omega⟩ : Fin 16) (⟨c.val % 64, by omega⟩ : Fin 64) (0 : Fin 1) e) ?_).trans ?_
  · rewrite [Shape.rowMajor_val_four, Shape.rowMajor_val_three]
    show ((c.val / 64 * 64 + c.val % 64) * 1 + 0) * 1024 + e.val = (c.val / 64 * 64 + c.val % 64) * 1024 + e.val
    omega
  refine (extractStridedSlice_apply _ _ h1 _
    (ix4 (⟨c.val / 64, by omega⟩ : Fin 16) (⟨c.val % 64, by omega⟩ : Fin 64) (⟨j, hj⟩ : Fin 3) e) (fun a => ?_)).trans ?_
  · match a with
    | ⟨0, _⟩ => show c.val / 64 = 0 + c.val / 64; omega
    | ⟨1, _⟩ => show c.val % 64 = 0 + c.val % 64; omega
    | ⟨2, _⟩ => show j = j + 0; omega
    | ⟨3, _⟩ => show e.val = 0 + e.val; omega
  refine shapeCast_apply _ h0 _ _ ?_
  rewrite [Shape.rowMajor_val_two, Shape.rowMajor_val_four]
  show (c.val * 3 + j) * 1024 + e.val = ((c.val / 64 * 64 + c.val % 64) * 3 + j) * 1024 + e.val
  omega

/-- The interleaved bias re-sliced to the row of projection j, at column c: entry c·3 + j of the interleaved bias. -/
private theorem bsel_apply (x3 : (⟨1, ![3072]⟩ : Shape).Idx → EReal) (j : Nat) (hj : j < 3)
    (h0 : (⟨1, ![3072]⟩ : Shape).ShapeCasts ⟨3, ![16, 64, 3]⟩)
    (h1 : (⟨3, ![16, 64, 3]⟩ : Shape).Slices ![0, 0, j] ⟨3, ![16, 64, 1]⟩)
    (h2 : (⟨3, ![16, 64, 1]⟩ : Shape).ShapeCasts ⟨2, ![16, 64]⟩)
    (h3 : (⟨2, ![16, 64]⟩ : Shape).ShapeCasts ⟨2, ![1, 1024]⟩) (c : Fin 1024) :
    shapeCast ⟨2, ![1, 1024]⟩ (shapeCast ⟨2, ![16, 64]⟩ (extractStridedSlice ⟨3, ![16, 64, 1]⟩ ![0, 0, j]
      (shapeCast ⟨3, ![16, 64, 3]⟩ x3 h0) h1) h2) h3 (ix2 (0 : Fin 1) c)
      = x3 (ix1 (⟨c.val * 3 + j, by have := c.isLt; omega⟩ : Fin 3072)) := by
  have hc := c.isLt
  refine (shapeCast_apply _ h3 (ix2 (0 : Fin 1) c)
    (ix2 (⟨c.val / 64, by omega⟩ : Fin 16) (⟨c.val % 64, by omega⟩ : Fin 64)) ?_).trans ?_
  · rewrite [Shape.rowMajor_val_two, Shape.rowMajor_val_two]
    show c.val / 64 * 64 + c.val % 64 = 0 * 1024 + c.val
    omega
  refine (shapeCast_apply _ h2 _
    (ix3 (⟨c.val / 64, by omega⟩ : Fin 16) (⟨c.val % 64, by omega⟩ : Fin 64) (0 : Fin 1)) ?_).trans ?_
  · rewrite [Shape.rowMajor_val_three, Shape.rowMajor_val_two]
    show (c.val / 64 * 64 + c.val % 64) * 1 + 0 = c.val / 64 * 64 + c.val % 64
    omega
  refine (extractStridedSlice_apply _ _ h1 _
    (ix3 (⟨c.val / 64, by omega⟩ : Fin 16) (⟨c.val % 64, by omega⟩ : Fin 64) (⟨j, hj⟩ : Fin 3)) (fun a => ?_)).trans ?_
  · match a with
    | ⟨0, _⟩ => show c.val / 64 = 0 + c.val / 64; omega
    | ⟨1, _⟩ => show c.val % 64 = 0 + c.val % 64; omega
    | ⟨2, _⟩ => show j = j + 0; omega
  refine shapeCast_apply _ h0 _ _ ?_
  rewrite [Shape.rowMajor_val_one, Shape.rowMajor_val_three]
  show c.val * 3 + j = (c.val / 64 * 64 + c.val % 64) * 3 + j
  omega

/-- The features in batch-major order at (β, s, e). -/
private theorem featsT_apply (x0 : FVec Ideal S1024x8x1024 .f32) (β : Fin 8) (s e : Fin 1024) :
    Cert.AttnHost.featsT x0 (ix3 β s e) = x0 (ix3 s β e) := by
  unfold Cert.AttnHost.featsT
  exact transpose_apply [1, 0, 2] x0 _ (ix3 β s e) (ix3 s β e) (fun b => match b with
    | ⟨0, _⟩ => rfl
    | ⟨1, _⟩ => rfl
    | ⟨2, _⟩ => rfl)

private theorem wq_apply (x2 : FVec Ideal S3072x1024 .f32) (c e : Fin 1024) :
    Cert.AttnHost.wq x2 (ix2 c e) = x2 (ix2 (⟨c.val * 3 + 0, by have := c.isLt; omega⟩ : Fin 3072) e) := by
  unfold Cert.AttnHost.wq Cert.AttnHost.wSplit
  exact wsel_apply x2 0 (by omega) _ _ _ _ c e
private theorem wk_apply (x2 : FVec Ideal S3072x1024 .f32) (c e : Fin 1024) :
    Cert.AttnHost.wk x2 (ix2 c e) = x2 (ix2 (⟨c.val * 3 + 1, by have := c.isLt; omega⟩ : Fin 3072) e) := by
  unfold Cert.AttnHost.wk Cert.AttnHost.wSplit
  exact wsel_apply x2 1 (by omega) _ _ _ _ c e
private theorem wv_apply (x2 : FVec Ideal S3072x1024 .f32) (c e : Fin 1024) :
    Cert.AttnHost.wv x2 (ix2 c e) = x2 (ix2 (⟨c.val * 3 + 2, by have := c.isLt; omega⟩ : Fin 3072) e) := by
  unfold Cert.AttnHost.wv Cert.AttnHost.wSplit
  exact wsel_apply x2 2 (by omega) _ _ _ _ c e

private theorem bq_apply (x3 : FVec Ideal S3072 .f32) (c : Fin 1024) :
    Cert.AttnHost.bq x3 (ix2 (0 : Fin 1) c) = x3 (ix1 (⟨c.val * 3 + 0, by have := c.isLt; omega⟩ : Fin 3072)) := by
  unfold Cert.AttnHost.bq Cert.AttnHost.bSplit
  exact bsel_apply x3 0 (by omega) _ _ _ _ c
private theorem bk_apply (x3 : FVec Ideal S3072 .f32) (c : Fin 1024) :
    Cert.AttnHost.bk x3 (ix2 (0 : Fin 1) c) = x3 (ix1 (⟨c.val * 3 + 1, by have := c.isLt; omega⟩ : Fin 3072)) := by
  unfold Cert.AttnHost.bk Cert.AttnHost.bSplit
  exact bsel_apply x3 1 (by omega) _ _ _ _ c
private theorem bv_apply (x3 : FVec Ideal S3072 .f32) (c : Fin 1024) :
    Cert.AttnHost.bv x3 (ix2 (0 : Fin 1) c) = x3 (ix1 (⟨c.val * 3 + 2, by have := c.isLt; omega⟩ : Fin 3072)) := by
  unfold Cert.AttnHost.bv Cert.AttnHost.bSplit
  exact bsel_apply x3 2 (by omega) _ _ _ _ c

/-- The reference's transposed projection at (j, η, s, d): flat position ((s·128 + η)·64 + d)·3 + j of the reshaped array
    is (s, η / 16, (η % 16 · 64 + d)·3 + j) of the projected one. -/
private theorem ref_proj_apply (x0 : FVec Ideal S1024x8x1024 .f32) (x2 : FVec Ideal S3072x1024 .f32) (x3 : FVec Ideal S3072 .f32) (j : Nat) (hj : j < 3) (η : Fin 128) (s : Fin 1024) (d : Fin 64) :
    val_main_v5 (F := Ideal) x0 x2 x3 (ix4 (⟨j, hj⟩ : Fin 3) η s d)
      = (∑ e : Fin 1024, x0 (ix3 s (Cert.AttnSpec.batchOf η) e)
          * x2 (ix2 (⟨(Cert.AttnSpec.colOf η d).val * 3 + j, by have := (Cert.AttnSpec.colOf η d).isLt; omega⟩ : Fin 3072) e))
        + x3 (ix1 (⟨(Cert.AttnSpec.colOf η d).val * 3 + j, by have := (Cert.AttnSpec.colOf η d).isLt; omega⟩ : Fin 3072)) := by
  rw [val_main_v5_apply, val_main_v4_apply, val_main_v3_apply, val_main_v0_apply, val_main_v2_apply, val_main_v1_apply]
  have hη := η.isLt
  have hs := s.isLt
  have hd := d.isLt
  have hI : idx_main_v4 (idx_main_v5 (ix4 (⟨j, hj⟩ : Fin 3) η s d))
      = ix3 s (Cert.AttnSpec.batchOf η)
          (⟨(Cert.AttnSpec.colOf η d).val * 3 + j, by have := (Cert.AttnSpec.colOf η d).isLt; omega⟩ : Fin 3072) :=
    funext fun a => Fin.ext (by
      match a with
      | ⟨0, _⟩ => show (((s.val * 128 + η.val) * 64 + d.val) * 3 + j) / 24576 = s.val; omega
      | ⟨1, _⟩ => show (((s.val * 128 + η.val) * 64 + d.val) * 3 + j) / 3072 % 8 = η.val / 16; omega
      | ⟨2, _⟩ => show (((s.val * 128 + η.val) * 64 + d.val) * 3 + j) % 3072 = (η.val % 16 * 64 + d.val) * 3 + j; omega)
  rw [hI]
  generalize (⟨(Cert.AttnSpec.colOf η d).val * 3 + j, by have := (Cert.AttnSpec.colOf η d).isLt; omega⟩ : Fin 3072) = c
  generalize Cert.AttnSpec.batchOf η = β
  have hl : ∀ k : Fin 1024, lidx_main_v0 (ix3 s β c) k = ix3 s β k := fun k => funext fun a => by
    match a with | ⟨0, _⟩ => rfl | ⟨1, _⟩ => rfl | ⟨2, _⟩ => rfl
  have hr : ∀ k : Fin 1024, ridx_main_v0 (ix3 s β c) k = ix2 c k := fun k => funext fun a => by
    match a with | ⟨0, _⟩ => rfl | ⟨1, _⟩ => rfl
  have hb : idx_main_v1 (idx_main_v2 (ix3 s β c)) = ix1 c := funext fun a => by
    match a with | ⟨0, _⟩ => rfl
  simp only [hl, hr, hb]
  rfl

/-- The reference's query, key and value arrays are slices 0, 1 and 2 of the transposed projection. -/
private theorem ref_q_slice (x0 : FVec Ideal S1024x8x1024 .f32) (x2 : FVec Ideal S3072x1024 .f32) (x3 : FVec Ideal S3072 .f32) (η : Fin 128) (s : Fin 1024) (d : Fin 64) :
    val_main_v7 (F := Ideal) x0 x2 x3 (ix3 η s d) = val_main_v5 (F := Ideal) x0 x2 x3 (ix4 (⟨0, by omega⟩ : Fin 3) η s d) := by
  rw [val_main_v7_apply, val_main_v6_apply]
  have hη := η.isLt
  have hs := s.isLt
  have hd := d.isLt
  exact congrArg _ (funext fun a => Fin.ext (by
    match a with
    | ⟨0, _⟩ => rfl
    | ⟨1, _⟩ => show ((η.val * 1024 + s.val) * 64 + d.val) / 65536 % 128 = η.val; omega
    | ⟨2, _⟩ => show ((η.val * 1024 + s.val) * 64 + d.val) / 64 % 1024 = s.val; omega
    | ⟨3, _⟩ => show ((η.val * 1024 + s.val) * 64 + d.val) % 64 = d.val; omega))
private theorem ref_k_slice (x0 : FVec Ideal S1024x8x1024 .f32) (x2 : FVec Ideal S3072x1024 .f32) (x3 : FVec Ideal S3072 .f32) (η : Fin 128) (s : Fin 1024) (d : Fin 64) :
    val_main_v9 (F := Ideal) x0 x2 x3 (ix3 η s d) = val_main_v5 (F := Ideal) x0 x2 x3 (ix4 (⟨1, by omega⟩ : Fin 3) η s d) := by
  rw [val_main_v9_apply, val_main_v8_apply]
  have hη := η.isLt
  have hs := s.isLt
  have hd := d.isLt
  exact congrArg _ (funext fun a => Fin.ext (by
    match a with
    | ⟨0, _⟩ => rfl
    | ⟨1, _⟩ => show ((η.val * 1024 + s.val) * 64 + d.val) / 65536 % 128 = η.val; omega
    | ⟨2, _⟩ => show ((η.val * 1024 + s.val) * 64 + d.val) / 64 % 1024 = s.val; omega
    | ⟨3, _⟩ => show ((η.val * 1024 + s.val) * 64 + d.val) % 64 = d.val; omega))
private theorem ref_v_slice (x0 : FVec Ideal S1024x8x1024 .f32) (x2 : FVec Ideal S3072x1024 .f32) (x3 : FVec Ideal S3072 .f32) (η : Fin 128) (s : Fin 1024) (d : Fin 64) :
    val_main_v11 (F := Ideal) x0 x2 x3 (ix3 η s d) = val_main_v5 (F := Ideal) x0 x2 x3 (ix4 (⟨2, by omega⟩ : Fin 3) η s d) := by
  rw [val_main_v11_apply, val_main_v10_apply]
  have hη := η.isLt
  have hs := s.isLt
  have hd := d.isLt
  exact congrArg _ (funext fun a => Fin.ext (by
    match a with
    | ⟨0, _⟩ => rfl
    | ⟨1, _⟩ => show ((η.val * 1024 + s.val) * 64 + d.val) / 65536 % 128 = η.val; omega
    | ⟨2, _⟩ => show ((η.val * 1024 + s.val) * 64 + d.val) / 64 % 1024 = s.val; omega
    | ⟨3, _⟩ => show ((η.val * 1024 + s.val) * 64 + d.val) % 64 = d.val; omega))

/-- The reference's query array is the head-split projection of the batch-major features by the query weights and bias. -/
theorem ref_q (x0 : FVec Ideal S1024x8x1024 .f32) (x2 : FVec Ideal S3072x1024 .f32) (x3 : FVec Ideal S3072 .f32) :
    val_main_v7 (F := Ideal) x0 x2 x3
      = Cert.AttnSpec.headProj (Cert.AttnHost.featsT x0) (Cert.AttnHost.wq x2) (Cert.AttnHost.bq x3) := by
  funext i
  obtain ⟨η, s, d, rfl⟩ : ∃ (η : Fin 128) (s : Fin 1024) (d : Fin 64), i = ix3 η s d := ⟨i 0, i 1, i 2, eq_ix3 i⟩
  rw [ref_q_slice, ref_proj_apply]
  show _ = Cert.AttnSpec.headProjAt (Cert.AttnHost.featsT x0) (Cert.AttnHost.wq x2) (Cert.AttnHost.bq x3) η s d
  unfold Cert.AttnSpec.headProjAt
  simp only [featsT_apply, wq_apply, bq_apply]

/-- The reference's key array, likewise. -/
theorem ref_k (x0 : FVec Ideal S1024x8x1024 .f32) (x2 : FVec Ideal S3072x1024 .f32) (x3 : FVec Ideal S3072 .f32) :
    val_main_v9 (F := Ideal) x0 x2 x3
      = Cert.AttnSpec.headProj (Cert.AttnHost.featsT x0) (Cert.AttnHost.wk x2) (Cert.AttnHost.bk x3) := by
  funext i
  obtain ⟨η, s, d, rfl⟩ : ∃ (η : Fin 128) (s : Fin 1024) (d : Fin 64), i = ix3 η s d := ⟨i 0, i 1, i 2, eq_ix3 i⟩
  rw [ref_k_slice, ref_proj_apply]
  show _ = Cert.AttnSpec.headProjAt (Cert.AttnHost.featsT x0) (Cert.AttnHost.wk x2) (Cert.AttnHost.bk x3) η s d
  unfold Cert.AttnSpec.headProjAt
  simp only [featsT_apply, wk_apply, bk_apply]

/-- The reference's value array, likewise. -/
theorem ref_v (x0 : FVec Ideal S1024x8x1024 .f32) (x2 : FVec Ideal S3072x1024 .f32) (x3 : FVec Ideal S3072 .f32) :
    val_main_v11 (F := Ideal) x0 x2 x3
      = Cert.AttnSpec.headProj (Cert.AttnHost.featsT x0) (Cert.AttnHost.wv x2) (Cert.AttnHost.bv x3) := by
  funext i
  obtain ⟨η, s, d, rfl⟩ : ∃ (η : Fin 128) (s : Fin 1024) (d : Fin 64), i = ix3 η s d := ⟨i 0, i 1, i 2, eq_ix3 i⟩
  rw [ref_v_slice, ref_proj_apply]
  show _ = Cert.AttnSpec.headProjAt (Cert.AttnHost.featsT x0) (Cert.AttnHost.wv x2) (Cert.AttnHost.bv x3) η s d
  unfold Cert.AttnSpec.headProjAt
  simp only [featsT_apply, wv_apply, bv_apply]

/-- The reference's flattened bias is the plumbing's: the same reshape of the same argument. -/
theorem ref_bias (x1 : FVec Ideal S8x16x1024x1024 .f32) :
    val_main_v12 (F := Ideal) x1 = Cert.AttnHost.biasFlat x1 := rfl

end Cert.AttnRef

end
-- ==== Proof.AttnRun.lean ====
/-
  The kernel program's run with its two results named. The program is four segments — the parameter plumbing on the
  host, the projection kernel's grid, one reshape on the host, the attention kernel's grid — and the contents of every
  buffer at each boundary are a fold from the launch memory. At the last boundary the attention probabilities sit where
  the second grid's write-backs leave them, and the value projection where the first grid's write-backs left it: no later
  segment writes that array.
-/
import proofs.«175414_j29652454212057_2_alg».proof.Proof.Gen.KernelIdeal.Frame

set_option maxRecDepth 16384

noncomputable section

namespace Cert.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reshape between the two grids does not write the value projection's array. -/
theorem W3_v21_2 (c : Dev nD) : W3 m ρ c (Proc.devRef .tc main_v21_2) = W2 m ρ c (Proc.devRef .tc main_v21_2) :=
  StableHlo.after_of_forall_not_mem (b := Proc.devRef .tc main_v21_2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- At the last boundary the attention probabilities' array holds what the second grid's write-backs leave. -/
theorem W4_probs (c : Dev nD) :
    W4 m ρ c (Proc.devRef .tc main_v23) = (dat1 (V3 m ρ) c).arrAt 3 cfg1.N := W4_arr m ρ c 3

/-- At the last boundary the value projection's array holds what the first grid's write-backs left. -/
theorem W4_values (c : Dev nD) :
    W4 m ρ c (Proc.devRef .tc main_v21_2) = (dat0 (V1 m ρ) c).arrAt 9 cfg0.N :=
  calc W4 m ρ c (Proc.devRef .tc main_v21_2)
    _ = W3 m ρ c (Proc.devRef .tc main_v21_2) := W4_of_ne m ρ c main_v21_2 (by decide)
    _ = W2 m ρ c (Proc.devRef .tc main_v21_2) := W3_v21_2 m ρ c
    _ = (dat0 (V1 m ρ) c).arrAt 9 cfg0.N := W2_arr m ρ c 9

set_option backward.isDefEq.respectTransparency.types false in
/-- Every weakly fair execution of the kernel program terminates, nothing faulting, with both results at the last
    boundary's contents and the arguments as launched. -/
theorem run : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_v21_2) = W4 m ρ c (Proc.devRef .tc main_v21_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       h c _ (mem_uc main_v21_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.AttnRun

end
-- ==== Proof.AttnProj.lean ====
/-
  The projection kernel's value. At grid point (β, τ) the body loads rows 256τ … 256τ + 255 of batch entry β of the
  batch-major features, the three whole weight matrices and bias rows, and stores into each output's block the product
  `f · Wᵀ + b` with its 1024 columns split into 16 heads of 64 and the head axis brought to the front. Each of the three
  output arrays therefore ends, at (β·16 + h, 256τ + r, d), at `Σ_e X[β, 256τ + r, e] · W[h·64 + d, e] + b[0, h·64 + d]`:
  the head-split projection of the specification. The 32 blocks of an output tile its array.
-/
import proofs.«175414_j29652454212057_2_alg».proof.Proof.Gen.KernelIdeal.Frame
import proofs.«175414_j29652454212057_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.AttnProj

open Idealize.ShloMosaic Idealize.ShloMosaic.TcCoe Idealize.SL.Sem Idealize.ShloMosaic.ValueIdx
open Idealize.ShloMosaic.Pipeline (Dat)
open Cert.KernelIdeal Cert.KernelIdeal.Gen

/-- Column `h·64 + d` of the projection: head `h`, coordinate `d`. -/
def col (h : Fin 16) (d : Fin 64) : Fin 1024 := ⟨h.val * 64 + d.val, by have := h.isLt; have := d.isLt; omega⟩

/-- The left operand's row coordinate under the contraction is the output's row. -/
theorem lhs_row (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
/-- The right operand's row coordinate under the contraction is the output's column. -/
theorem rhs_row (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl

/-- The matrix product inside the body, at row `r` and column `q`: the contraction over the 1024 feature coordinates. -/
theorem matmul_entry (f : FVec Ideal S256x1024 .f32) (w : FVec Ideal S1024x1024 .f32) (r : Fin 256) (q : Fin 1024) :
    matmul dot_S256x1024_S1024x1024_S256x1024_1_1_0_0_n_n (some .fp32) f w (constant S256x1024 .f32 0x00000000#32) (ix2 r q)
      = ∑ e : Fin 1024, f (ix2 r e) * w (ix2 q e) := by
  refine (Ideal.matmul_constant_zero_apply dot_S256x1024_S1024x1024_S256x1024_1_1_0_0_n_n (some .fp32) f w (ix2 r q)).trans ?_
  rw [← Equiv.sum_comp (contrEquiv1 dot_S256x1024_S1024x1024_S256x1024_1_1_0_0_n_n 1024 rfl rfl).symm]
  refine Finset.sum_congr rfl fun e _ => ?_
  have he := contrEquiv1_symm_val dot_S256x1024_S1024x1024_S256x1024_1_1_0_0_n_n 1024 rfl rfl e
  have el : dot_S256x1024_S1024x1024_S256x1024_1_1_0_0_n_n.lhsIdx (ix2 r q) ((contrEquiv1 dot_S256x1024_S1024x1024_S256x1024_1_1_0_0_n_n 1024 rfl rfl).symm e) = ix2 r e :=
    funext fun a => Fin.ext (by
      match a with
      | ⟨0, _⟩ => exact lhs_row _ _
      | ⟨1, _⟩ => exact (dot_S256x1024_S1024x1024_S256x1024_1_1_0_0_n_n.lhsIdx_val_of_single rfl _ _).trans he)
  have er : dot_S256x1024_S1024x1024_S256x1024_1_1_0_0_n_n.rhsIdx (ix2 r q) ((contrEquiv1 dot_S256x1024_S1024x1024_S256x1024_1_1_0_0_n_n 1024 rfl rfl).symm e) = ix2 q e :=
    funext fun a => Fin.ext (by
      match a with
      | ⟨0, _⟩ => exact rhs_row _ _
      | ⟨1, _⟩ => exact (dot_S256x1024_S1024x1024_S256x1024_1_1_0_0_n_n.rhsIdx_val_of_single rfl _ _).trans he)
  rw [el, er]

/-- What the body stores into an output block, at head `h`, row `r`, coordinate `d`: the loaded rows against row
    `h·64 + d` of the loaded weights, plus that column of the bias row. -/
theorem payload_entry (v0 : Vec Ideal S1x256x1024 .f32) (v2 : Vec Ideal S1024x1024 .f32) (v9 : Vec Ideal S1x1024 .f32)
    (h : Fin 16) (r : Fin 256) (d : Fin 64) :
    k0_pay2 (F := Ideal) v0 v2 v9 (ix3 h r d)
      = (∑ e : Fin 1024, v0 (ix3 (0 : Fin 1) r e) * v2 (ix2 (col h d) e)) + v9 (ix2 (0 : Fin 1) (col h d)) := by
  unfold k0_pay2 k0_pay1
  refine (transpose_apply [1, 0, 2] _ transposes_S256x16x64_p1_0_2_S16x256x64 (ix3 h r d) (ix3 r h d)
    (fun b => match b with | ⟨0, _⟩ => rfl | ⟨1, _⟩ => rfl | ⟨2, _⟩ => rfl)).trans ?_
  refine (shapeCast_apply _ shapeCasts_S256x1024_S256x16x64 (ix3 r h d) (ix2 r (col h d)) (by
    rw [Shape.rowMajor_val_two, Shape.rowMajor_val_three]
    show r.val * 1024 + (h.val * 64 + d.val) = (r.val * 16 + h.val) * 64 + d.val
    omega)).trans ?_
  rw [addf_apply, matmul_entry, shapeCast_self, shapeCast_self]
  refine congrArg₂ (· + ·) (Finset.sum_congr rfl fun e _ => ?_) ?_
  · rw [shapeCast_1ab_ab_apply]
  · exact broadcastTo_1b_ab_apply _ _ _ _

/-- The same at any index of the stored block. -/
theorem payload_at (v0 : Vec Ideal S1x256x1024 .f32) (v2 : Vec Ideal S1024x1024 .f32) (v9 : Vec Ideal S1x1024 .f32) (j : S16x256x64.Idx) :
    k0_pay2 (F := Ideal) v0 v2 v9 j
      = (∑ e : Fin 1024, v0 (ix3 (0 : Fin 1) ⟨(j 1).val, (j 1).isLt⟩ e) * v2 (ix2 (col ⟨(j 0).val, (j 0).isLt⟩ ⟨(j 2).val, (j 2).isLt⟩) e))
        + v9 (ix2 (0 : Fin 1) (col ⟨(j 0).val, (j 0).isLt⟩ ⟨(j 2).val, (j 2).isLt⟩)) := by
  obtain ⟨h, r, d, rfl⟩ : ∃ (h : Fin 16) (r : Fin 256) (d : Fin 64), j = ix3 h r d := ⟨j 0, j 1, j 2, eq_ix3 j⟩
  exact payload_entry v0 v2 v9 h r d

/-- The key and value stores hold the same function of their own weights and bias. -/
theorem payload_k_eq (v0 : Vec Ideal S1x256x1024 .f32) (v4 : Vec Ideal S1024x1024 .f32) (v14 : Vec Ideal S1x1024 .f32) :
    k0_pay3 (F := Ideal) v0 v4 v14 = k0_pay2 (F := Ideal) v0 v4 v14 := rfl
theorem payload_v_eq (v0 : Vec Ideal S1x256x1024 .f32) (v6 : Vec Ideal S1024x1024 .f32) (v19 : Vec Ideal S1x1024 .f32) :
    k0_pay4 (F := Ideal) v0 v6 v19 = k0_pay2 (F := Ideal) v0 v6 v19 := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided once over the 32 grid points: the features' block moves with the outputs' on the
    batch and row-tile axes, the weights and bias rows stay at block (0, 0), the three outputs share one map, and the
    outputs' block indices stay in their ranges. -/
theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) ≤ 7 ∧ win0_7.index t (1 : Fin 3) ≤ 3 ∧ win0_7.index t (2 : Fin 3) = 0
    ∧ win0_8.index t (0 : Fin 3) = win0_7.index t (0 : Fin 3) ∧ win0_8.index t (1 : Fin 3) = win0_7.index t (1 : Fin 3) ∧ win0_8.index t (2 : Fin 3) = 0
    ∧ win0_9.index t (0 : Fin 3) = win0_7.index t (0 : Fin 3) ∧ win0_9.index t (1 : Fin 3) = win0_7.index t (1 : Fin 3) ∧ win0_9.index t (2 : Fin 3) = 0 :=
  (by decide +kernel : ∀ t : Fin grid0.N, _)

/-- Every (batch entry, row tile) is some grid point's. -/
theorem idx_onto : ∀ (q0 : Fin 8) (q1 : Fin 4), ∃ t : Fin cfg0.N, win0_7.index t (0 : Fin 3) = q0.val ∧ win0_7.index t (1 : Fin 3) = q1.val :=
  (by decide +kernel : ∀ (q0 : Fin 8) (q1 : Fin 4), ∃ t : Fin grid0.N, win0_7.index t (0 : Fin 3) = q0.val ∧ win0_7.index t (1 : Fin 3) = q1.val)

variable (V : (c : Dev nD) → (b : Ref sig .tc) → Buf (Elt Ideal) ((c : Thread nD τ).loc b))

/-- The features' block at a point is rows of one batch entry of the batch-major features. -/
theorem feats_block (c : Dev nD) (t : Fin cfg0.N) (r : Fin 256) (e : Fin 1024) (β : Fin 8) (s : Fin 1024)
    (h0 : win0_0.index t (0 : Fin 3) = β.val) (h1 : win0_0.index t (1 : Fin 3) * 256 + r.val = s.val) (h2 : win0_0.index t (2 : Fin 3) = 0) :
    iblk0 V c 0 t (ix3 (0 : Fin 1) r e) = V c main_v20 (ix3 β s e) := by
  unfold iblk0
  rw [View.read_apply]
  show V c main_v20 _ = V c main_v20 _
  refine congrArg (V c main_v20) (funext fun a => Fin.ext ?_)
  match a with
  | ⟨0, _⟩ => show win0_0.index t (0 : Fin 3) * 1 + 1 * 0 = β.val; omega
  | ⟨1, _⟩ => show win0_0.index t (1 : Fin 3) * 256 + 1 * r.val = s.val; omega
  | ⟨2, _⟩ => show win0_0.index t (2 : Fin 3) * 1024 + 1 * e.val = e.val; omega

/-- Window 1's block at any point is the whole query weight matrix. -/
theorem w1_block (c : Dev nD) (t : Fin cfg0.N) (q e : Fin 1024)
    (h0 : win0_1.index t (0 : Fin 2) = 0) (h1 : win0_1.index t (1 : Fin 2) = 0) :
    iblk0 V c 1 t (ix2 q e) = V c main_v4 (ix2 q e) := by
  unfold iblk0
  rw [View.read_apply]
  show V c main_v4 _ = V c main_v4 _
  refine congrArg (V c main_v4) (funext fun a => Fin.ext ?_)
  match a with
  | ⟨0, _⟩ => show win0_1.index t (0 : Fin 2) * 1024 + 1 * q.val = q.val; omega
  | ⟨1, _⟩ => show win0_1.index t (1 : Fin 2) * 1024 + 1 * e.val = e.val; omega

/-- Window 2's block at any point is the whole key weight matrix. -/
theorem w2_block (c : Dev nD) (t : Fin cfg0.N) (q e : Fin 1024)
    (h0 : win0_2.index t (0 : Fin 2) = 0) (h1 : win0_2.index t (1 : Fin 2) = 0) :
    iblk0 V c 2 t (ix2 q e) = V c main_v7 (ix2 q e) := by
  unfold iblk0
  rw [View.read_apply]
  show V c main_v7 _ = V c main_v7 _
  refine congrArg (V c main_v7) (funext fun a => Fin.ext ?_)
  match a with
  | ⟨0, _⟩ => show win0_2.index t (0 : Fin 2) * 1024 + 1 * q.val = q.val; omega
  | ⟨1, _⟩ => show win0_2.index t (1 : Fin 2) * 1024 + 1 * e.val = e.val; omega

/-- Window 3's block at any point is the whole value weight matrix. -/
theorem w3_block (c : Dev nD) (t : Fin cfg0.N) (q e : Fin 1024)
    (h0 : win0_3.index t (0 : Fin 2) = 0) (h1 : win0_3.index t (1 : Fin 2) = 0) :
    iblk0 V c 3 t (ix2 q e) = V c main_v10 (ix2 q e) := by
  unfold iblk0
  rw [View.read_apply]
  show V c main_v10 _ = V c main_v10 _
  refine congrArg (V c main_v10) (funext fun a => Fin.ext ?_)
  match a with
  | ⟨0, _⟩ => show win0_3.index t (0 : Fin 2) * 1024 + 1 * q.val = q.val; omega
  | ⟨1, _⟩ => show win0_3.index t (1 : Fin 2) * 1024 + 1 * e.val = e.val; omega

/-- Window 4's block at any point is the whole query bias row. -/
theorem b4_block (c : Dev nD) (t : Fin cfg0.N) (q : Fin 1024)
    (h0 : win0_4.index t (0 : Fin 2) = 0) (h1 : win0_4.index t (1 : Fin 2) = 0) :
    iblk0 V c 4 t (ix2 (0 : Fin 1) q) = V c main_v13 (ix2 (0 : Fin 1) q) := by
  unfold iblk0
  rw [View.read_apply]
  show V c main_v13 _ = V c main_v13 _
  refine congrArg (V c main_v13) (funext fun a => Fin.ext ?_)
  match a with
  | ⟨0, _⟩ => show win0_4.index t (0 : Fin 2) * 1 + 1 * 0 = 0; omega
  | ⟨1, _⟩ => show win0_4.index t (1 : Fin 2) * 1024 + 1 * q.val = q.val; omega

/-- Window 5's block at any point is the whole key bias row. -/
theorem b5_block (c : Dev nD) (t : Fin cfg0.N) (q : Fin 1024)
    (h0 : win0_5.index t (0 : Fin 2) = 0) (h1 : win0_5.index t (1 : Fin 2) = 0) :
    iblk0 V c 5 t (ix2 (0 : Fin 1) q) = V c main_v16 (ix2 (0 : Fin 1) q) := by
  unfold iblk0
  rw [View.read_apply]
  show V c main_v16 _ = V c main_v16 _
  refine congrArg (V c main_v16) (funext fun a => Fin.ext ?_)
  match a with
  | ⟨0, _⟩ => show win0_5.index t (0 : Fin 2) * 1 + 1 * 0 = 0; omega
  | ⟨1, _⟩ => show win0_5.index t (1 : Fin 2) * 1024 + 1 * q.val = q.val; omega

/-- Window 6's block at any point is the whole value bias row. -/
theorem b6_block (c : Dev nD) (t : Fin cfg0.N) (q : Fin 1024)
    (h0 : win0_6.index t (0 : Fin 2) = 0) (h1 : win0_6.index t (1 : Fin 2) = 0) :
    iblk0 V c 6 t (ix2 (0 : Fin 1) q) = V c main_v19 (ix2 (0 : Fin 1) q) := by
  unfold iblk0
  rw [View.read_apply]
  show V c main_v19 _ = V c main_v19 _
  refine congrArg (V c main_v19) (funext fun a => Fin.ext ?_)
  match a with
  | ⟨0, _⟩ => show win0_6.index t (0 : Fin 2) * 1 + 1 * 0 = 0; omega
  | ⟨1, _⟩ => show win0_6.index t (1 : Fin 2) * 1024 + 1 * q.val = q.val; omega

/-! ## The query projection's array (window 7) -/

/-- What point `t` writes back to the query array is block `t` of the head-split projection of the operands as the
    grid finds them. -/
theorem flushed7 (c : Dev nD) (t : Fin cfg0.N) :
    (dat0 (F := Ideal) V c).flushed 7 t
      = ((cfg0.win 7).blk t).view.read (Elt Ideal) (Cert.AttnSpec.headProj (V c main_v20) (V c main_v4) (V c main_v13)) := by
  show (cfg0.win 7).cut (grid0.coords t) ((dat0 V c).after 7 t) = _
  rw [after0_7]
  unfold out0_7
  rw [View.canon_unit_zero hz3]
  simp only [View.ld_unit_zero (S := S1x256x1024) hz3, View.ld_unit_zero (S := S1024x1024) hz2, View.ld_unit_zero (S := S1x1024) hz2]
  obtain ⟨e0, e1, e2, f10, f11, f20, f21, f30, f31, f40, f41, f50, f51, f60, f61, b0, b1, b2, k0, k1, k2, v0, v1, v2⟩ := idx_facts t
  funext j
  refine (payload_at _ _ _ j).trans ?_
  have hj0 : (j 0).val < 16 := (j 0).isLt
  have hj1 : (j 1).val < 256 := (j 1).isLt
  have hj2 : (j 2).val < 64 := (j 2).isLt
  show _ = Cert.AttnSpec.headProjAt (V c main_v20) (V c main_v4) (V c main_v13)
    ⟨win0_7.index t (0 : Fin 3) * 16 + 1 * (j 0).val, _⟩ ⟨win0_7.index t (1 : Fin 3) * 256 + 1 * (j 1).val, _⟩ ⟨win0_7.index t (2 : Fin 3) * 64 + 1 * (j 2).val, _⟩
  unfold Cert.AttnSpec.headProjAt
  have hcol : col ⟨(j 0).val, (j 0).isLt⟩ ⟨(j 2).val, (j 2).isLt⟩
      = Cert.AttnSpec.colOf ⟨win0_7.index t (0 : Fin 3) * 16 + 1 * (j 0).val, by omega⟩ ⟨win0_7.index t (2 : Fin 3) * 64 + 1 * (j 2).val, by omega⟩ :=
    Fin.ext (by show (j 0).val * 64 + (j 2).val = (win0_7.index t (0 : Fin 3) * 16 + 1 * (j 0).val) % 16 * 64 + (win0_7.index t (2 : Fin 3) * 64 + 1 * (j 2).val); omega)
  refine congrArg₂ (· + ·) (Finset.sum_congr rfl fun e _ => congrArg₂ (· * ·) ?_ ?_) ?_
  · refine feats_block V c t _ e _ _ ?_ ?_ e2
    · show win0_0.index t (0 : Fin 3) = (win0_7.index t (0 : Fin 3) * 16 + 1 * (j 0).val) / 16; omega
    · show win0_0.index t (1 : Fin 3) * 256 + (j 1).val = win0_7.index t (1 : Fin 3) * 256 + 1 * (j 1).val; omega
  · rw [hcol]; exact w1_block V c t _ e f10 f11
  · rw [hcol]; exact b4_block V c t _ f40 f41

/-- An index of the query array is in point `t`'s block iff each coordinate is in the block's range on its axis. -/
theorem mem_blk7 (t : Fin cfg0.N) (i : S128x1024x64.Idx) :
    i ∈ ((cfg0.win 7).blk t).view.set ↔ ∀ a : Fin 3, win0_7.index t a * S16x256x64.size a ≤ (i a).val ∧ (i a).val < win0_7.index t a * S16x256x64.size a + S16x256x64.size a := by
  show i ∈ ((View.whole main_v21_0).slice (win0_7.rect t)).set ↔ _
  rw [View.set_slice_whole, Rect.mem_set_unit]
  exact Iff.rfl

/-- The 32 blocks tile the query array: head row `η`, position `s` lie in the block of batch entry `η / 16`, row tile `s / 256`. -/
theorem cover7 (i : S128x1024x64.Idx) : ∃ t : Fin cfg0.N, (cfg0.win 7).flush t = true ∧ i ∈ ((cfg0.win 7).blk t).view.set := by
  have hi0 : (i 0).val < 128 := (i 0).isLt
  have hi1 : (i 1).val < 1024 := (i 1).isLt
  have hi2 : (i 2).val < 64 := (i 2).isLt
  obtain ⟨t, q0, q1⟩ := idx_onto ⟨(i 0).val / 16, by omega⟩ ⟨(i 1).val / 256, by omega⟩
  obtain ⟨e0, e1, e2, f10, f11, f20, f21, f30, f31, f40, f41, f50, f51, f60, f61, b0, b1, b2, k0, k1, k2, v0, v1, v2⟩ := idx_facts t
  have q0' : win0_7.index t (0 : Fin 3) = (i 0).val / 16 := q0
  have q1' : win0_7.index t (1 : Fin 3) = (i 1).val / 256 := q1
  refine ⟨t, flush0_7 t, ?_⟩
  rw [mem_blk7]
  intro a
  match a with
  | ⟨0, _⟩ => show win0_7.index t (0 : Fin 3) * 16 ≤ (i 0).val ∧ (i 0).val < win0_7.index t (0 : Fin 3) * 16 + 16; omega
  | ⟨1, _⟩ => show win0_7.index t (1 : Fin 3) * 256 ≤ (i 1).val ∧ (i 1).val < win0_7.index t (1 : Fin 3) * 256 + 256; omega
  | ⟨2, _⟩ => show win0_7.index t (2 : Fin 3) * 64 ≤ (i 2).val ∧ (i 2).val < win0_7.index t (2 : Fin 3) * 64 + 64; omega

/-- After the first grid the query array holds the head-split projection of the operands as the grid found them. -/
theorem final7 (c : Dev nD) :
    (dat0 (F := Ideal) V c).arrAt 7 cfg0.N = Cert.AttnSpec.headProj (V c main_v20) (V c main_v4) (V c main_v13) :=
  (dat0 V c).arrAt_eq_of_cover 7 _ (fun t _ => flushed7 V c t) (cover7)

/-! ## The key projection's array (window 8) -/

/-- What point `t` writes back to the key array is block `t` of the head-split projection of the operands as the
    grid finds them. -/
theorem flushed8 (c : Dev nD) (t : Fin cfg0.N) :
    (dat0 (F := Ideal) V c).flushed 8 t
      = ((cfg0.win 8).blk t).view.read (Elt Ideal) (Cert.AttnSpec.headProj (V c main_v20) (V c main_v7) (V c main_v16)) := by
  show (cfg0.win 8).cut (grid0.coords t) ((dat0 V c).after 8 t) = _
  rw [after0_8]
  unfold out0_8
  rw [View.canon_unit_zero hz3]
  simp only [View.ld_unit_zero (S := S1x256x1024) hz3, View.ld_unit_zero (S := S1024x1024) hz2, View.ld_unit_zero (S := S1x1024) hz2]
  obtain ⟨e0, e1, e2, f10, f11, f20, f21, f30, f31, f40, f41, f50, f51, f60, f61, b0, b1, b2, k0, k1, k2, v0, v1, v2⟩ := idx_facts t
  rw [payload_k_eq]
  funext j
  refine (payload_at _ _ _ j).trans ?_
  have hj0 : (j 0).val < 16 := (j 0).isLt
  have hj1 : (j 1).val < 256 := (j 1).isLt
  have hj2 : (j 2).val < 64 := (j 2).isLt
  show _ = Cert.AttnSpec.headProjAt (V c main_v20) (V c main_v7) (V c main_v16)
    ⟨win0_8.index t (0 : Fin 3) * 16 + 1 * (j 0).val, _⟩ ⟨win0_8.index t (1 : Fin 3) * 256 + 1 * (j 1).val, _⟩ ⟨win0_8.index t (2 : Fin 3) * 64 + 1 * (j 2).val, _⟩
  unfold Cert.AttnSpec.headProjAt
  have hcol : col ⟨(j 0).val, (j 0).isLt⟩ ⟨(j 2).val, (j 2).isLt⟩
      = Cert.AttnSpec.colOf ⟨win0_8.index t (0 : Fin 3) * 16 + 1 * (j 0).val, by omega⟩ ⟨win0_8.index t (2 : Fin 3) * 64 + 1 * (j 2).val, by omega⟩ :=
    Fin.ext (by show (j 0).val * 64 + (j 2).val = (win0_8.index t (0 : Fin 3) * 16 + 1 * (j 0).val) % 16 * 64 + (win0_8.index t (2 : Fin 3) * 64 + 1 * (j 2).val); omega)
  refine congrArg₂ (· + ·) (Finset.sum_congr rfl fun e _ => congrArg₂ (· * ·) ?_ ?_) ?_
  · refine feats_block V c t _ e _ _ ?_ ?_ e2
    · show win0_0.index t (0 : Fin 3) = (win0_8.index t (0 : Fin 3) * 16 + 1 * (j 0).val) / 16; omega
    · show win0_0.index t (1 : Fin 3) * 256 + (j 1).val = win0_8.index t (1 : Fin 3) * 256 + 1 * (j 1).val; omega
  · rw [hcol]; exact w2_block V c t _ e f20 f21
  · rw [hcol]; exact b5_block V c t _ f50 f51

/-- An index of the key array is in point `t`'s block iff each coordinate is in the block's range on its axis. -/
theorem mem_blk8 (t : Fin cfg0.N) (i : S128x1024x64.Idx) :
    i ∈ ((cfg0.win 8).blk t).view.set ↔ ∀ a : Fin 3, win0_8.index t a * S16x256x64.size a ≤ (i a).val ∧ (i a).val < win0_8.index t a * S16x256x64.size a + S16x256x64.size a := by
  show i ∈ ((View.whole main_v21_1).slice (win0_8.rect t)).set ↔ _
  rw [View.set_slice_whole, Rect.mem_set_unit]
  exact Iff.rfl

/-- The 32 blocks tile the key array: head row `η`, position `s` lie in the block of batch entry `η / 16`, row tile `s / 256`. -/
theorem cover8 (i : S128x1024x64.Idx) : ∃ t : Fin cfg0.N, (cfg0.win 8).flush t = true ∧ i ∈ ((cfg0.win 8).blk t).view.set := by
  have hi0 : (i 0).val < 128 := (i 0).isLt
  have hi1 : (i 1).val < 1024 := (i 1).isLt
  have hi2 : (i 2).val < 64 := (i 2).isLt
  obtain ⟨t, q0, q1⟩ := idx_onto ⟨(i 0).val / 16, by omega⟩ ⟨(i 1).val / 256, by omega⟩
  obtain ⟨e0, e1, e2, f10, f11, f20, f21, f30, f31, f40, f41, f50, f51, f60, f61, b0, b1, b2, k0, k1, k2, v0, v1, v2⟩ := idx_facts t
  have q0' : win0_7.index t (0 : Fin 3) = (i 0).val / 16 := q0
  have q1' : win0_7.index t (1 : Fin 3) = (i 1).val / 256 := q1
  refine ⟨t, flush0_8 t, ?_⟩
  rw [mem_blk8]
  intro a
  match a with
  | ⟨0, _⟩ => show win0_8.index t (0 : Fin 3) * 16 ≤ (i 0).val ∧ (i 0).val < win0_8.index t (0 : Fin 3) * 16 + 16; omega
  | ⟨1, _⟩ => show win0_8.index t (1 : Fin 3) * 256 ≤ (i 1).val ∧ (i 1).val < win0_8.index t (1 : Fin 3) * 256 + 256; omega
  | ⟨2, _⟩ => show win0_8.index t (2 : Fin 3) * 64 ≤ (i 2).val ∧ (i 2).val < win0_8.index t (2 : Fin 3) * 64 + 64; omega

/-- After the first grid the key array holds the head-split projection of the operands as the grid found them. -/
theorem final8 (c : Dev nD) :
    (dat0 (F := Ideal) V c).arrAt 8 cfg0.N = Cert.AttnSpec.headProj (V c main_v20) (V c main_v7) (V c main_v16) :=
  (dat0 V c).arrAt_eq_of_cover 8 _ (fun t _ => flushed8 V c t) (cover8)

/-! ## The value projection's array (window 9) -/

/-- What point `t` writes back to the value array is block `t` of the head-split projection of the operands as the
    grid finds them. -/
theorem flushed9 (c : Dev nD) (t : Fin cfg0.N) :
    (dat0 (F := Ideal) V c).flushed 9 t
      = ((cfg0.win 9).blk t).view.read (Elt Ideal) (Cert.AttnSpec.headProj (V c main_v20) (V c main_v10) (V c main_v19)) := by
  show (cfg0.win 9).cut (grid0.coords t) ((dat0 V c).after 9 t) = _
  rw [after0_9]
  unfold out0_9
  rw [View.canon_unit_zero hz3]
  simp only [View.ld_unit_zero (S := S1x256x1024) hz3, View.ld_unit_zero (S := S1024x1024) hz2, View.ld_unit_zero (S := S1x1024) hz2]
  obtain ⟨e0, e1, e2, f10, f11, f20, f21, f30, f31, f40, f41, f50, f51, f60, f61, b0, b1, b2, k0, k1, k2, v0, v1, v2⟩ := idx_facts t
  rw [payload_v_eq]
  funext j
  refine (payload_at _ _ _ j).trans ?_
  have hj0 : (j 0).val < 16 := (j 0).isLt
  have hj1 : (j 1).val < 256 := (j 1).isLt
  have hj2 : (j 2).val < 64 := (j 2).isLt
  show _ = Cert.AttnSpec.headProjAt (V c main_v20) (V c main_v10) (V c main_v19)
    ⟨win0_9.index t (0 : Fin 3) * 16 + 1 * (j 0).val, _⟩ ⟨win0_9.index t (1 : Fin 3) * 256 + 1 * (j 1).val, _⟩ ⟨win0_9.index t (2 : Fin 3) * 64 + 1 * (j 2).val, _⟩
  unfold Cert.AttnSpec.headProjAt
  have hcol : col ⟨(j 0).val, (j 0).isLt⟩ ⟨(j 2).val, (j 2).isLt⟩
      = Cert.AttnSpec.colOf ⟨win0_9.index t (0 : Fin 3) * 16 + 1 * (j 0).val, by omega⟩ ⟨win0_9.index t (2 : Fin 3) * 64 + 1 * (j 2).val, by omega⟩ :=
    Fin.ext (by show (j 0).val * 64 + (j 2).val = (win0_9.index t (0 : Fin 3) * 16 + 1 * (j 0).val) % 16 * 64 + (win0_9.index t (2 : Fin 3) * 64 + 1 * (j 2).val); omega)
  refine congrArg₂ (· + ·) (Finset.sum_congr rfl fun e _ => congrArg₂ (· * ·) ?_ ?_) ?_
  · refine feats_block V c t _ e _ _ ?_ ?_ e2
    · show win0_0.index t (0 : Fin 3) = (win0_9.index t (0 : Fin 3) * 16 + 1 * (j 0).val) / 16; omega
    · show win0_0.index t (1 : Fin 3) * 256 + (j 1).val = win0_9.index t (1 : Fin 3) * 256 + 1 * (j 1).val; omega
  · rw [hcol]; exact w3_block V c t _ e f30 f31
  · rw [hcol]; exact b6_block V c t _ f60 f61

/-- An index of the value array is in point `t`'s block iff each coordinate is in the block's range on its axis. -/
theorem mem_blk9 (t : Fin cfg0.N) (i : S128x1024x64.Idx) :
    i ∈ ((cfg0.win 9).blk t).view.set ↔ ∀ a : Fin 3, win0_9.index t a * S16x256x64.size a ≤ (i a).val ∧ (i a).val < win0_9.index t a * S16x256x64.size a + S16x256x64.size a := by
  show i ∈ ((View.whole main_v21_2).slice (win0_9.rect t)).set ↔ _
  rw [View.set_slice_whole, Rect.mem_set_unit]
  exact Iff.rfl

/-- The 32 blocks tile the value array: head row `η`, position `s` lie in the block of batch entry `η / 16`, row tile `s / 256`. -/
theorem cover9 (i : S128x1024x64.Idx) : ∃ t : Fin cfg0.N, (cfg0.win 9).flush t = true ∧ i ∈ ((cfg0.win 9).blk t).view.set := by
  have hi0 : (i 0).val < 128 := (i 0).isLt
  have hi1 : (i 1).val < 1024 := (i 1).isLt
  have hi2 : (i 2).val < 64 := (i 2).isLt
  obtain ⟨t, q0, q1⟩ := idx_onto ⟨(i 0).val / 16, by omega⟩ ⟨(i 1).val / 256, by omega⟩
  obtain ⟨e0, e1, e2, f10, f11, f20, f21, f30, f31, f40, f41, f50, f51, f60, f61, b0, b1, b2, k0, k1, k2, v0, v1, v2⟩ := idx_facts t
  have q0' : win0_7.index t (0 : Fin 3) = (i 0).val / 16 := q0
  have q1' : win0_7.index t (1 : Fin 3) = (i 1).val / 256 := q1
  refine ⟨t, flush0_9 t, ?_⟩
  rw [mem_blk9]
  intro a
  match a with
  | ⟨0, _⟩ => show win0_9.index t (0 : Fin 3) * 16 ≤ (i 0).val ∧ (i 0).val < win0_9.index t (0 : Fin 3) * 16 + 16; omega
  | ⟨1, _⟩ => show win0_9.index t (1 : Fin 3) * 256 ≤ (i 1).val ∧ (i 1).val < win0_9.index t (1 : Fin 3) * 256 + 256; omega
  | ⟨2, _⟩ => show win0_9.index t (2 : Fin 3) * 64 ≤ (i 2).val ∧ (i 2).val < win0_9.index t (2 : Fin 3) * 64 + 64; omega

/-- After the first grid the value array holds the head-split projection of the operands as the grid found them. -/
theorem final9 (c : Dev nD) :
    (dat0 (F := Ideal) V c).arrAt 9 cfg0.N = Cert.AttnSpec.headProj (V c main_v20) (V c main_v10) (V c main_v19) :=
  (dat0 V c).arrAt_eq_of_cover 9 _ (fun t _ => flushed9 V c t) (cover9)

end Cert.AttnProj

end
-- ==== Proof.AttnGlue.lean ====
/-
  What the two grids find in their operand arrays, in terms of the argument arrays. The first grid is entered after the
  parameter plumbing: its operands are the batch-major features and the three weight matrices and bias rows cut out of
  the interleaved parameters. The second grid is entered after one more reshape: its operands are the query and key
  projections as the first grid's write-backs left them, and the attention bias with batch and head flattened.
-/
import proofs.«175414_j29652454212057_2_alg».proof.Proof.Gen.KernelIdeal.Frame
import proofs.«175414_j29652454212057_2_alg».proof.Proof.AttnHost
import Idealize.ShloMosaic.Lib.StableHlo.Run

set_option maxRecDepth 16384

noncomputable section

namespace Cert.AttnGlue

open Idealize.ShloMosaic Idealize.ShloMosaic.TcCoe Idealize.SL.Sem Idealize.ShloMosaic.StableHlo
open Cert.KernelIdeal Cert.KernelIdeal.Gen Cert.AttnHost

variable (m : (ℓ : Loc nD τ sig) → Buf (Elt Ideal) ℓ) (ρ : Dev nD → PrngReg)

/-! ## The first grid's operands -/

theorem V1_feats (c : Dev nD) : V1 m ρ c main_v20 = featsT (m ((c.tc : Thread nD τ).loc main_arg0)) := by
  show StableHlo.after hostOps0 (W0 m ρ c) (Proc.devRef .tc main_v20) = _
  dsimp only [hostOps0]; after_results; rfl

theorem V1_wq (c : Dev nD) : V1 m ρ c main_v4 = wq (m ((c.tc : Thread nD τ).loc main_arg2)) := by
  show StableHlo.after hostOps0 (W0 m ρ c) (Proc.devRef .tc main_v4) = _
  dsimp only [hostOps0]; after_results; rfl
theorem V1_wk (c : Dev nD) : V1 m ρ c main_v7 = wk (m ((c.tc : Thread nD τ).loc main_arg2)) := by
  show StableHlo.after hostOps0 (W0 m ρ c) (Proc.devRef .tc main_v7) = _
  dsimp only [hostOps0]; after_results; rfl
theorem V1_wv (c : Dev nD) : V1 m ρ c main_v10 = wv (m ((c.tc : Thread nD τ).loc main_arg2)) := by
  show StableHlo.after hostOps0 (W0 m ρ c) (Proc.devRef .tc main_v10) = _
  dsimp only [hostOps0]; after_results; rfl

theorem V1_bq (c : Dev nD) : V1 m ρ c main_v13 = bq (m ((c.tc : Thread nD τ).loc main_arg3)) := by
  show StableHlo.after hostOps0 (W0 m ρ c) (Proc.devRef .tc main_v13) = _
  dsimp only [hostOps0]; after_results; rfl
theorem V1_bk (c : Dev nD) : V1 m ρ c main_v16 = bk (m ((c.tc : Thread nD τ).loc main_arg3)) := by
  show StableHlo.after hostOps0 (W0 m ρ c) (Proc.devRef .tc main_v16) = _
  dsimp only [hostOps0]; after_results; rfl
theorem V1_bv (c : Dev nD) : V1 m ρ c main_v19 = bv (m ((c.tc : Thread nD τ).loc main_arg3)) := by
  show StableHlo.after hostOps0 (W0 m ρ c) (Proc.devRef .tc main_v19) = _
  dsimp only [hostOps0]; after_results; rfl

/-! ## The second grid's operands -/

/-- Neither the plumbing nor the first grid writes the attention bias argument. -/
theorem W2_bias_arg (c : Dev nD) : W2 m ρ c (Proc.devRef .tc main_arg1) = m ((c.tc : Thread nD τ).loc main_arg1) := by
  refine (W2_of_ne m ρ c main_arg1 (by decide)).trans ?_
  show StableHlo.after hostOps0 (W0 m ρ c) (Proc.devRef .tc main_arg1) = _
  dsimp only [hostOps0]; after_results

theorem V3_bias (c : Dev nD) : V3 m ρ c main_v22 = biasFlat (m ((c.tc : Thread nD τ).loc main_arg1)) := by
  show StableHlo.after hostOps1 (W2 m ρ c) (Proc.devRef .tc main_v22) = _
  dsimp only [hostOps1]; after_results
  rw [W2_bias_arg]; rfl

theorem V3_q (c : Dev nD) : V3 m ρ c main_v21_0 = (dat0 (V1 m ρ) c).arrAt 7 cfg0.N := by
  show StableHlo.after hostOps1 (W2 m ρ c) (Proc.devRef .tc main_v21_0) = _
  dsimp only [hostOps1]; after_results
  exact W2_arr m ρ c 7

theorem V3_k (c : Dev nD) : V3 m ρ c main_v21_1 = (dat0 (V1 m ρ) c).arrAt 8 cfg0.N := by
  show StableHlo.after hostOps1 (W2 m ρ c) (Proc.devRef .tc main_v21_1) = _
  dsimp only [hostOps1]; after_results
  exact W2_arr m ρ c 8

end Cert.AttnGlue

end
-- ==== Proof.AttnRegion.lean ====
/-
  The value of the attention region: one grid point per head row `η`; at point `η` the body reads row block `η` of
  the query, key and bias arrays and writes row block `η` of the result. Read index by index, the body's arithmetic
  on a block is the max-shifted softmax of the biased, scaled scores, so the result array after all 128 points is
  `attnProbs` of the three input arrays.

  The steps: (1) the body's arithmetic on three blocks, at an explicit index of the block; (2) what one grid point
  writes back is the corresponding block of `attnProbs`; (3) the 128 blocks cover the result array.
-/
import proofs.«175414_j29652454212057_2_alg».proof.Proof.Gen.KernelIdeal.Frame
import proofs.«175414_j29652454212057_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.AttnRegion

open Idealize.ShloMosaic Idealize.ShloMosaic.TcCoe Idealize.SL.Sem Idealize.ShloMosaic.ValueIdx
open Idealize.ShloMosaic.Pipeline (Dat)
open Cert.KernelIdeal Cert.KernelIdeal.Gen
open Cert.AttnSpec

/-! ## The column forms of a row statistic -/

/-- A vector of `n` entries cast to a column `[n, 1]` reads, at `(s, z)`, entry `s`. -/
theorem shapeCast_a_a1_apply {α : Type} {n : ℕ} (v : (⟨1, ![n]⟩ : Shape).Idx → α)
    (h : (⟨1, ![n]⟩ : Shape).ShapeCasts ⟨2, ![n, 1]⟩) (s : Fin n) (z : Fin 1) :
    shapeCast ⟨2, ![n, 1]⟩ v h (ix2 s z) = v (ix1 s) :=
  shapeCast_apply v h _ _ (by
    have hz : z.val = 0 := by omega
    rw [Shape.rowMajor_val_two, Shape.rowMajor_val_one]
    show s.val = s.val * 1 + z.val
    rw [hz, Nat.mul_one, Nat.add_zero])

/-- A column `[n, 1]` broadcast along the rows to `[n, m]` reads, at `(s, t)`, the column's entry `s`. -/
theorem broadcastTo_a1_ab_apply {α : Type} {n m : ℕ} (v : (⟨2, ![n, 1]⟩ : Shape).Idx → α)
    (h : (⟨2, ![n, 1]⟩ : Shape).Broadcasts ⟨2, ![n, m]⟩) (s : Fin n) (t : Fin m) :
    broadcastTo ⟨2, ![n, m]⟩ v h (ix2 s t) = v (ix2 s (0 : Fin 1)) := by
  refine broadcastTo_apply v h (ix2 s t) (ix2 s (0 : Fin 1)) fun ax => ?_
  match ax with
  | ⟨0, _⟩ =>
    show s.val = if n = 1 then 0 else s.val
    split
    · have := s.isLt; omega
    · rfl
  | ⟨1, _⟩ => rfl

/-- The row index `s` with column `u` put back is `(s, u)`. -/
theorem lift_row (h : S1024x1024.Reduces [1] S1024) (s : Fin 1024) (u : Fin (S1024x1024.size 1)) :
    h.lift (ix1 s) u = ix2 s (⟨u.val, u.isLt⟩ : Fin 1024) := by
  funext c; apply Fin.ext
  fin_cases c <;> rfl

/-! ## The two row reductions -/

/-- The row maximum from −∞ of a [1024, 1024] matrix, at row `s`. -/
theorem rowMax_apply (x : FVec Ideal S1024x1024 .f32) (s : Fin 1024) :
    multiReduction .maximumf [1] S1024 x 0xFF800000#32 reduces_S1024x1024_S1024 (.inl rfl) rfl (ix1 s)
      = rowMax (fun u => x (ix2 s u)) := by
  refine (Ideal.multiReduction_maximumf_single x _ reduces_S1024x1024_S1024 (.inl rfl) rfl (ix1 s)).trans ?_
  have hf : (x ∘ reduces_S1024x1024_S1024.lift (ix1 s)) = fun u : Fin 1024 => x (ix2 s u) :=
    funext fun u => congrArg x (lift_row _ s u)
  unfold rowMax
  exact congrArg (fun f => Finset.fold max negInf f (Finset.univ : Finset (Fin 1024))) hf

/-- The row sum of a [1024, 1024] matrix, at row `s`. -/
theorem rowSum_apply (x : FVec Ideal S1024x1024 .f32) (s : Fin 1024) :
    multiReduction .add [1] S1024 x 0x00000000#32 reduces_S1024x1024_S1024 (.inl rfl) rfl (ix1 s)
      = ∑ u : Fin 1024, x (ix2 s u) :=
  (Ideal.multiReduction_add_single x _ reduces_S1024x1024_S1024 (.inl rfl) rfl (ix1 s)).trans
    (Finset.sum_congr rfl fun u _ => congrArg x (lift_row _ s u))

/-! ## The product of a query block with the transposed key block -/

/-- The operand indices of the dot at output index `j` and contraction index `q`: the left operand is read at
    `(j 0, q)`, the right one at `(j 1, q)`. -/
theorem lhs_row (j : S1024x1024.Idx) (q : dot_S1024x64_S1024x64_S1024x1024_1_1_0_0_n_n.contr.Idx) :
    (dot_S1024x64_S1024x64_S1024x1024_1_1_0_0_n_n.lhsIdx j q 0).val = (j 0).val := by
  unfold DotDims.lhsIdx
  rw [dif_neg (show ¬(0 : Fin S1024x64.rank) ∈ dot_S1024x64_S1024x64_S1024x1024_1_1_0_0_n_n.lhsBatch by decide),
    dif_pos (show (0 : Fin S1024x64.rank) ∈ dot_S1024x64_S1024x64_S1024x1024_1_1_0_0_n_n.lhsNonContracting by decide)]
  rfl
theorem lhs_col (j : S1024x1024.Idx) (q : dot_S1024x64_S1024x64_S1024x1024_1_1_0_0_n_n.contr.Idx) :
    (dot_S1024x64_S1024x64_S1024x1024_1_1_0_0_n_n.lhsIdx j q 1).val = (q ⟨0, by decide⟩).val :=
  dot_S1024x64_S1024x64_S1024x1024_1_1_0_0_n_n.lhsIdx_val_of_single rfl j q
theorem rhs_row (j : S1024x1024.Idx) (q : dot_S1024x64_S1024x64_S1024x1024_1_1_0_0_n_n.contr.Idx) :
    (dot_S1024x64_S1024x64_S1024x1024_1_1_0_0_n_n.rhsIdx j q 0).val = (j 1).val := by
  unfold DotDims.rhsIdx
  rw [dif_neg (show ¬(0 : Fin S1024x64.rank) ∈ dot_S1024x64_S1024x64_S1024x1024_1_1_0_0_n_n.rhsBatch by decide),
    dif_pos (show (0 : Fin S1024x64.rank) ∈ dot_S1024x64_S1024x64_S1024x1024_1_1_0_0_n_n.rhsNonContracting by decide)]
  rfl
theorem rhs_col (j : S1024x1024.Idx) (q : dot_S1024x64_S1024x64_S1024x1024_1_1_0_0_n_n.contr.Idx) :
    (dot_S1024x64_S1024x64_S1024x1024_1_1_0_0_n_n.rhsIdx j q 1).val = (q ⟨0, by decide⟩).val :=
  dot_S1024x64_S1024x64_S1024x1024_1_1_0_0_n_n.rhsIdx_val_of_single rfl j q

/-- Contracting the second axis of both [1024, 64] operands into the zero accumulator: entry `(s, u)` is
    `Σ_d A[s, d] · B[u, d]`. -/
theorem matmul_rows_apply (A B : FVec Ideal S1024x64 .f32) (s u : Fin 1024) :
    matmul dot_S1024x64_S1024x64_S1024x1024_1_1_0_0_n_n (some .fp32) A B (constant S1024x1024 .f32 0x00000000#32) (ix2 s u)
      = ∑ d : Fin 64, A (ix2 s d) * B (ix2 u d) := by
  simp only [matmul]
  rw [Ideal.matmul_constant_zero_apply,
    ← Equiv.sum_comp (contrEquiv1 dot_S1024x64_S1024x64_S1024x1024_1_1_0_0_n_n 64 rfl rfl).symm]
  refine Finset.sum_congr rfl fun d _ => ?_
  have hd := contrEquiv1_symm_val dot_S1024x64_S1024x64_S1024x1024_1_1_0_0_n_n 64 rfl rfl d
  have el : dot_S1024x64_S1024x64_S1024x1024_1_1_0_0_n_n.lhsIdx (ix2 s u)
      ((contrEquiv1 dot_S1024x64_S1024x64_S1024x1024_1_1_0_0_n_n 64 rfl rfl).symm d) = ix2 s d :=
    funext fun a => Fin.ext (by
      match a with
      | ⟨0, _⟩ => exact lhs_row _ _
      | ⟨1, _⟩ => exact (lhs_col _ _).trans hd)
  have er : dot_S1024x64_S1024x64_S1024x1024_1_1_0_0_n_n.rhsIdx (ix2 s u)
      ((contrEquiv1 dot_S1024x64_S1024x64_S1024x1024_1_1_0_0_n_n 64 rfl rfl).symm d) = ix2 u d :=
    funext fun a => Fin.ext (by
      match a with
      | ⟨0, _⟩ => exact rhs_row _ _
      | ⟨1, _⟩ => exact (rhs_col _ _).trans hd)
  rw [el, er]

/-! ## The body's arithmetic on a block -/

/-- The biased, scaled scores of a query block against a key block, as the body forms them. -/
def blockScores (q k : Vec Ideal S1x1024x64 .f32) (b : Vec Ideal S1x1024x1024 .f32) : FVec Ideal S1024x1024 .f32 :=
  addf (mulf (matmul dot_S1024x64_S1024x64_S1024x1024_1_1_0_0_n_n (some .fp32)
      (shapeCast S1024x64 q shapeCasts_S1x1024x64_S1024x64 : FVec Ideal S1024x64 .f32)
      (shapeCast S1024x64 k shapeCasts_S1x1024x64_S1024x64 : FVec Ideal S1024x64 .f32)
      (constant S1024x1024 .f32 0x00000000#32))
    (broadcast S1024x1024 (Scalar.ofBits .f32 0x3E000000#32)))
    (shapeCast S1024x1024 b shapeCasts_S1x1024x1024_S1024x1024)

/-- A row statistic `[1024]` spread back over the rows' entries. -/
abbrev spread (v : FVec Ideal S1024 .f32) : FVec Ideal S1024x1024 .f32 :=
  broadcastTo S1024x1024 (shapeCast S1024x1 v shapeCasts_S1024_S1024x1) broadcasts_S1024x1_S1024x1024

/-- The exponentials of a matrix's entries shifted by their row's maximum. -/
def expShift (x : FVec Ideal S1024x1024 .f32) : FVec Ideal S1024x1024 .f32 :=
  exp (subf x (spread (multiReduction .maximumf [1] S1024 x 0xFF800000#32 reduces_S1024x1024_S1024 (.inl rfl) rfl)))

/-- The body's payload is the shifted exponentials of the scores divided by their row sums. -/
theorem pay_eq (q k : Vec Ideal S1x1024x64 .f32) (b : Vec Ideal S1x1024x1024 .f32) :
    k1_pay1 (F := Ideal) q k b = shapeCast S1x1024x1024 (divf (expShift (blockScores q k b))
      (spread (multiReduction .add [1] S1024 (expShift (blockScores q k b)) 0x00000000#32 reduces_S1024x1024_S1024 (.inl rfl) rfl)))
      shapeCasts_S1024x1024_S1x1024x1024 := rfl

theorem spread_apply (v : FVec Ideal S1024 .f32) (s t : Fin 1024) : spread v (ix2 s t) = v (ix1 s) :=
  (broadcastTo_a1_ab_apply _ broadcasts_S1024x1_S1024x1024 s t).trans (shapeCast_a_a1_apply v shapeCasts_S1024_S1024x1 s 0)

/-- The scores at `(s, u)`: the bias plus the scaled inner product of query row `s` with key row `u`. -/
theorem blockScores_apply (q k : Vec Ideal S1x1024x64 .f32) (b : Vec Ideal S1x1024x1024 .f32) (s u : Fin 1024) :
    blockScores q k b (ix2 s u) = b (ix3 (0 : Fin 1) s u) + scale * ∑ d : Fin 64, q (ix3 (0 : Fin 1) s d) * k (ix3 (0 : Fin 1) u d) := by
  unfold blockScores
  rw [addf_apply, mulf_apply, broadcast_apply, matmul_rows_apply, shapeCast_1ab_ab_apply]
  simp only [shapeCast_1ab_ab_apply]
  rw [add_comm, mul_comm]
  rfl

/-- The shifted exponentials at `(s, u)`. -/
theorem expShift_apply (x : FVec Ideal S1024x1024 .f32) (s u : Fin 1024) :
    expShift x (ix2 s u) = Ideal.exp (x (ix2 s u) - rowMax (fun v => x (ix2 s v))) := by
  unfold expShift
  show Ideal.exp (x (ix2 s u) - spread _ (ix2 s u)) = _
  rw [spread_apply, rowMax_apply]

/-- The body's arithmetic at index `(0, s, t)` of the result block: the max-shifted softmax of row `s` of the scores. -/
theorem pay_apply (q k : Vec Ideal S1x1024x64 .f32) (b : Vec Ideal S1x1024x1024 .f32) (s t : Fin 1024) :
    k1_pay1 (F := Ideal) q k b (ix3 (0 : Fin 1) s t)
      = softmaxRow (fun u => b (ix3 (0 : Fin 1) s u) + scale * ∑ d : Fin 64, q (ix3 (0 : Fin 1) s d) * k (ix3 (0 : Fin 1) u d)) t := by
  rw [pay_eq, shapeCast_ab_1ab_apply, divf_apply, spread_apply, rowSum_apply]
  simp only [expShift_apply, blockScores_apply]
  rfl

/-! ## One grid point: the block it reads and the block it writes -/

/-- The body's arithmetic on blocks `q`, `k`, `b` that are row block `η` of arrays `Q`, `K`, `B`: at every index of
    the result block it is `attnProbs Q K B` in row block `η`. -/
theorem block_eq (Q K : (⟨3, ![128, 1024, 64]⟩ : Shape).Idx → EReal) (B : (⟨3, ![128, 1024, 1024]⟩ : Shape).Idx → EReal)
    (η : Fin 128) (q k : Vec Ideal S1x1024x64 .f32) (b : Vec Ideal S1x1024x1024 .f32)
    (hq : ∀ (s : Fin 1024) (d : Fin 64), q (ix3 (0 : Fin 1) s d) = Q (ix3 η s d))
    (hk : ∀ (s : Fin 1024) (d : Fin 64), k (ix3 (0 : Fin 1) s d) = K (ix3 η s d))
    (hb : ∀ (s u : Fin 1024), b (ix3 (0 : Fin 1) s u) = B (ix3 η s u)) (j : S1x1024x1024.Idx) :
    k1_pay1 (F := Ideal) q k b j = attnProbs Q K B (ix3 η (j 1) (j 2)) := by
  obtain ⟨a, s, t, rfl⟩ : ∃ (a : Fin 1) (s t : Fin 1024), j = ix3 a s t := ⟨j 0, j 1, j 2, eq_ix3 j⟩
  obtain rfl : a = 0 := Subsingleton.elim _ _
  rw [pay_apply]
  simp only [hq, hk, hb]
  rfl

variable (V : (c : Dev nD) → (b : Ref sig .tc) → Buf (Elt Ideal) ((c : Thread nD τ).loc b))

/-- Grid point `t` is head row `t`. -/
abbrev headOf (t : Fin cfg1.N) : Fin 128 := t.cast N_1

/-- Every window's block index at grid point `t` is `(t, 0, 0)` (decided over the 128 points). -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, _)

/-- The query block at point `t` is row block `t` of the query array. -/
theorem iblk_q (c : Dev nD) (t : Fin cfg1.N) (s : Fin 1024) (d : Fin 64) :
    (iblk1 (F := Ideal) V c 0 t : Vec Ideal S1x1024x64 .f32) (ix3 (0 : Fin 1) s d) = V c main_v21_0 (ix3 (headOf t) s d) := by
  obtain ⟨⟨e0, e1, e2⟩, -, -, -⟩ := idx_facts t
  unfold iblk1
  show V c main_v21_0 (((cfg1.win 0).blk t).view.emb (ix3 (0 : Fin 1) s d)) = _
  refine congrArg _ (funext fun a => Fin.ext ?_)
  match a with
  | ⟨0, _⟩ => show win1_0.index t (0 : Fin 3) * 1 + 1 * 0 = t.val; omega
  | ⟨1, _⟩ => show win1_0.index t (1 : Fin 3) * 1024 + 1 * s.val = s.val; omega
  | ⟨2, _⟩ => show win1_0.index t (2 : Fin 3) * 64 + 1 * d.val = d.val; omega

/-- The key block at point `t` is row block `t` of the key array. -/
theorem iblk_k (c : Dev nD) (t : Fin cfg1.N) (s : Fin 1024) (d : Fin 64) :
    (iblk1 (F := Ideal) V c 1 t : Vec Ideal S1x1024x64 .f32) (ix3 (0 : Fin 1) s d) = V c main_v21_1 (ix3 (headOf t) s d) := by
  obtain ⟨-, ⟨e0, e1, e2⟩, -, -⟩ := idx_facts t
  unfold iblk1
  show V c main_v21_1 (((cfg1.win 1).blk t).view.emb (ix3 (0 : Fin 1) s d)) = _
  refine congrArg _ (funext fun a => Fin.ext ?_)
  match a with
  | ⟨0, _⟩ => show win1_1.index t (0 : Fin 3) * 1 + 1 * 0 = t.val; omega
  | ⟨1, _⟩ => show win1_1.index t (1 : Fin 3) * 1024 + 1 * s.val = s.val; omega
  | ⟨2, _⟩ => show win1_1.index t (2 : Fin 3) * 64 + 1 * d.val = d.val; omega

/-- The bias block at point `t` is row block `t` of the bias array. -/
theorem iblk_b (c : Dev nD) (t : Fin cfg1.N) (s u : Fin 1024) :
    (iblk1 (F := Ideal) V c 2 t : Vec Ideal S1x1024x1024 .f32) (ix3 (0 : Fin 1) s u) = V c main_v22 (ix3 (headOf t) s u) := by
  obtain ⟨-, -, ⟨e0, e1, e2⟩, -⟩ := idx_facts t
  unfold iblk1
  show V c main_v22 (((cfg1.win 2).blk t).view.emb (ix3 (0 : Fin 1) s u)) = _
  refine congrArg _ (funext fun a => Fin.ext ?_)
  match a with
  | ⟨0, _⟩ => show win1_2.index t (0 : Fin 3) * 1 + 1 * 0 = t.val; omega
  | ⟨1, _⟩ => show win1_2.index t (1 : Fin 3) * 1024 + 1 * s.val = s.val; omega
  | ⟨2, _⟩ => show win1_2.index t (2 : Fin 3) * 1024 + 1 * u.val = u.val; omega

theorem hz : (![0, 0, 0] : Fin 3 → Nat) = fun _ => 0 := funext fun a => by fin_cases a <;> rfl

/-- What grid point `t` writes back is row block `t` of `attnProbs` of the three arrays as the region finds them. -/
theorem flushed_eq (c : Dev nD) (t : Fin cfg1.N) :
    (dat1 (F := Ideal) V c).flushed 3 t
      = ((cfg1.win 3).blk t).view.read (Elt Ideal) (attnProbs (V c main_v21_0) (V c main_v21_1) (V c main_v22)) := by
  show (cfg1.win 3).cut (grid1.coords t) ((dat1 V c).after 3 t) = _
  rw [after1_3]
  unfold out1_3
  rw [View.canon_unit_zero hz]
  simp only [View.ld_unit_zero (S := S1x1024x64) hz, View.ld_unit_zero (S := S1x1024x1024) hz]
  obtain ⟨-, -, -, ⟨e0, e1, e2⟩⟩ := idx_facts t
  funext j
  have hj0 : (j 0).val < 1 := (j 0).isLt
  refine (block_eq (V c main_v21_0) (V c main_v21_1) (V c main_v22) (headOf t) _ _ _
    (iblk_q V c t) (iblk_k V c t) (iblk_b V c t) _).trans ?_
  show attnProbs (V c main_v21_0) (V c main_v21_1) (V c main_v22) _
    = attnProbs (V c main_v21_0) (V c main_v21_1) (V c main_v22) (((cfg1.win 3).blk t).view.emb j)
  refine congrArg _ (funext fun a => Fin.ext ?_)
  match a with
  | ⟨0, _⟩ => show t.val = win1_3.index t (0 : Fin 3) * 1 + 1 * (j 0).val; omega
  | ⟨1, _⟩ => show (j 1).val = win1_3.index t (1 : Fin 3) * 1024 + 1 * (j 1).val; omega
  | ⟨2, _⟩ => show (j 2).val = win1_3.index t (2 : Fin 3) * 1024 + 1 * (j 2).val; omega

/-! ## The 128 blocks cover the result array -/

/-- An index of the array is in point `t`'s block iff each coordinate is in the block's range on its axis. -/
theorem mem_blk (t : Fin cfg1.N) (i : S128x1024x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v23).slice (win1_3.rect t)).set ↔ _
  rw [View.set_slice_whole, Rect.mem_set_unit]
  exact Iff.rfl

/-- Index `(η, s, u)` lies in the block of grid point `η`, which is written back. -/
theorem cover (i : S128x1024x1024.Idx) :
    ∃ t : Fin cfg1.N, (cfg1.win 3).flush t = true ∧ i ∈ ((cfg1.win 3).blk t).view.set := by
  have hN : cfg1.N = 128 := N_1
  have hi0 : (i 0).val < 128 := (i 0).isLt
  have hi1 : (i 1).val < 1024 := (i 1).isLt
  have hi2 : (i 2).val < 1024 := (i 2).isLt
  obtain ⟨t, ht⟩ : ∃ t : Fin cfg1.N, t.val = (i 0).val := ⟨⟨(i 0).val, by omega⟩, rfl⟩
  obtain ⟨-, -, -, ⟨e0, e1, e2⟩⟩ := idx_facts t
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

/-! ## The result array after the region -/

/-- After the 128 points the result array holds `attnProbs` of the query, key and bias arrays as the region finds them. -/
theorem attn_final (c : Dev nD) :
    (dat1 (F := Ideal) V c).arrAt 3 cfg1.N = Cert.AttnSpec.attnProbs (V c main_v21_0) (V c main_v21_1) (V c main_v22) :=
  (dat1 V c).arrAt_eq_of_cover 3 _ (fun t _ => flushed_eq V c t) cover

end Cert.AttnRegion

end
-- ==== Proof.AttnKernel.lean ====
/-
  The kernel program's two results as functions of its four arguments. Reading the run backwards: the attention
  probabilities are what the attention grid leaves, which is the max-shifted softmax of the biased, scaled scores of the
  query and key arrays it finds; those arrays are what the projection grid left, the head-split projections of the
  batch-major features by the query and key weights and bias rows it found; and those operands are the parameter
  plumbing's re-slicing of the arguments. The value projection is the third array the projection grid left.
-/
import proofs.«175414_j29652454212057_2_alg».proof.Proof.AttnSpec
import proofs.«175414_j29652454212057_2_alg».proof.Proof.AttnHost
import proofs.«175414_j29652454212057_2_alg».proof.Proof.AttnRun
import proofs.«175414_j29652454212057_2_alg».proof.Proof.AttnProj
import proofs.«175414_j29652454212057_2_alg».proof.Proof.AttnGlue
import proofs.«175414_j29652454212057_2_alg».proof.Proof.AttnRegion

set_option maxRecDepth 16384

noncomputable section

namespace Cert.AttnKernel

open Idealize.ShloMosaic Idealize.ShloMosaic.TcCoe Idealize.SL.Sem
open Cert.KernelIdeal Cert.KernelIdeal.Gen Cert.AttnSpec Cert.AttnHost

/-- The attention probabilities as one function of the four argument arrays. -/
def probsOf (a0 : FVec Ideal S1024x8x1024 .f32) (a1 : FVec Ideal S8x16x1024x1024 .f32) (a2 : FVec Ideal S3072x1024 .f32)
    (a3 : FVec Ideal S3072 .f32) : FVec Ideal S128x1024x1024 .f32 :=
  attnProbs (headProj (featsT a0) (wq a2) (bq a3)) (headProj (featsT a0) (wk a2) (bk a3)) (biasFlat a1)

/-- The value projection as one function of the argument arrays. -/
def valuesOf (a0 : FVec Ideal S1024x8x1024 .f32) (a2 : FVec Ideal S3072x1024 .f32) (a3 : FVec Ideal S3072 .f32) :
    FVec Ideal S128x1024x64 .f32 :=
  headProj (featsT a0) (wv a2) (bv a3)

variable (m : (ℓ : Loc nD τ sig) → Buf (Elt Ideal) ℓ) (ρ : Dev nD → PrngReg)

/-- The query projection as the second grid finds it. -/
theorem q_entry (c : Dev nD) : V3 m ρ c main_v21_0
    = headProj (featsT (m ((c.tc : Thread nD τ).loc main_arg0))) (wq (m ((c.tc : Thread nD τ).loc main_arg2))) (bq (m ((c.tc : Thread nD τ).loc main_arg3))) := by
  rw [Cert.AttnGlue.V3_q m ρ c, Cert.AttnProj.final7 (V1 m ρ) c, Cert.AttnGlue.V1_feats m ρ c, Cert.AttnGlue.V1_wq m ρ c, Cert.AttnGlue.V1_bq m ρ c]

/-- The key projection as the second grid finds it. -/
theorem k_entry (c : Dev nD) : V3 m ρ c main_v21_1
    = headProj (featsT (m ((c.tc : Thread nD τ).loc main_arg0))) (wk (m ((c.tc : Thread nD τ).loc main_arg2))) (bk (m ((c.tc : Thread nD τ).loc main_arg3))) := by
  rw [Cert.AttnGlue.V3_k m ρ c, Cert.AttnProj.final8 (V1 m ρ) c, Cert.AttnGlue.V1_feats m ρ c, Cert.AttnGlue.V1_wk m ρ c, Cert.AttnGlue.V1_bk m ρ c]

/-- The attention probabilities' array at the end of the run. -/
theorem probs_eq (c : Dev nD) : W4 m ρ c (Proc.devRef .tc main_v23)
    = probsOf (m ((c.tc : Thread nD τ).loc main_arg0)) (m ((c.tc : Thread nD τ).loc main_arg1)) (m ((c.tc : Thread nD τ).loc main_arg2)) (m ((c.tc : Thread nD τ).loc main_arg3)) := by
  rw [Cert.AttnRun.W4_probs m ρ c, Cert.AttnRegion.attn_final (V3 m ρ) c, q_entry m ρ c, k_entry m ρ c, Cert.AttnGlue.V3_bias m ρ c]
  rfl

/-- The value projection's array at the end of the run. -/
theorem values_eq (c : Dev nD) : W4 m ρ c (Proc.devRef .tc main_v21_2)
    = valuesOf (m ((c.tc : Thread nD τ).loc main_arg0)) (m ((c.tc : Thread nD τ).loc main_arg2)) (m ((c.tc : Thread nD τ).loc main_arg3)) := by
  rw [Cert.AttnRun.W4_values m ρ c, Cert.AttnProj.final9 (V1 m ρ) c, Cert.AttnGlue.V1_feats m ρ c, Cert.AttnGlue.V1_wv m ρ c, Cert.AttnGlue.V1_bv m ρ c]
  rfl

/-- The kernel program's run, read: both results at their functions of the arguments, the arguments unchanged. -/
theorem run : θ_run defs (onTc (τ := τ) (main (F := Ideal))) ⟨m, fun _ => 0, ρ⟩ (fun r => ∀ c : Dev nD,
      r.2.mem ((c.tc : Thread nD τ).loc main_v23)
        = probsOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v21_2)
        = valuesOf (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (probs_eq m ρ c), (h c).2.1.trans (values_eq m ρ c), (h c).2.2⟩)
    (Cert.AttnRun.run (F := Ideal) m ρ)

end Cert.AttnKernel

end
-- ==== Proof.lean ====
/-
  Attention probabilities and value projection of a 16-head attention layer over 1024 positions and 8 batch entries:
  a kernel program of two grids (a fused query/key/value projection written head-major, then one softmax row block per
  head row) against a reference that projects with the interleaved weights, reshapes and transposes, and applies
  the library softmax. Over the extended reals both programs compute, for head row η = β·16 + h,

    q, k, v [η, s, d] = Σ_e feats[s, β, e] · W[(h·64 + d)·3 + j, e] + b[(h·64 + d)·3 + j]      (j = 0, 1, 2),
    x[η, s, t] = bias[β, h, s, t] + 2⁻³ · Σ_d q[η, s, d] · k[η, t, d],
    p[η, s, t] = exp (x[η, s, t] − max_u x[η, s, u]) / Σ_u exp (x[η, s, u] − max_u x[η, s, u]),

  and return (p, v). The two sides differ only in the order of a product and of a sum, in a maximum taken once more
  against −∞, and in how the indices are laid out; none of this needs the inputs to be finite. The frames are the
  generated ones; the idealization rewrote nothing, so there is nothing to preserve.
-/
import proofs.«175414_j29652454212057_2_alg».proof.Defs
import proofs.«175414_j29652454212057_2_alg».proof.Proof.Gen.Kernel
import proofs.«175414_j29652454212057_2_alg».proof.Proof.Gen.Kernel.Skeleton
import proofs.«175414_j29652454212057_2_alg».proof.Proof.Gen.Kernel.Launch
import proofs.«175414_j29652454212057_2_alg».proof.Proof.Gen.Kernel.Points
import proofs.«175414_j29652454212057_2_alg».proof.Proof.Gen.Kernel.Frame
import proofs.«175414_j29652454212057_2_alg».proof.Proof.Gen.KernelIdeal
import proofs.«175414_j29652454212057_2_alg».proof.Proof.Gen.KernelIdeal.Skeleton
import proofs.«175414_j29652454212057_2_alg».proof.Proof.Gen.KernelIdeal.Launch
import proofs.«175414_j29652454212057_2_alg».proof.Proof.Gen.KernelIdeal.Points
import proofs.«175414_j29652454212057_2_alg».proof.Proof.Gen.KernelIdeal.Frame
import proofs.«175414_j29652454212057_2_alg».proof.Proof.Gen.ReferenceIdeal
import proofs.«175414_j29652454212057_2_alg».proof.Proof.Gen.Pre_finite_inputs
import proofs.«175414_j29652454212057_2_alg».proof.Proof.Gen.ReferenceIdeal.Run
import proofs.«175414_j29652454212057_2_alg».proof.Proof.Gen.ReferenceIdeal.Read
import proofs.«175414_j29652454212057_2_alg».proof.Proof.AttnRef
import proofs.«175414_j29652454212057_2_alg».proof.Proof.AttnKernel
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing: there is nothing to preserve. -/
theorem preserves : Cert.preserves_Kernel_KernelIdeal := trivial

/-- The reference's attention probabilities are the same function of the arguments as the kernel program's. -/
theorem ref_probs_eq (a0 : FVec Ideal Cert.ReferenceIdeal.S1024x8x1024 .f32) (a1 : FVec Ideal Cert.ReferenceIdeal.S8x16x1024x1024 .f32)
    (a2 : FVec Ideal Cert.ReferenceIdeal.S3072x1024 .f32) (a3 : FVec Ideal Cert.ReferenceIdeal.S3072 .f32) :
    Cert.ReferenceIdeal.Read.val_main_v27 (F := Ideal) a0 a1 a2 a3 = Cert.AttnKernel.probsOf a0 a1 a2 a3 := by
  rw [Cert.AttnRef.ref_probs, Cert.AttnRef.ref_q, Cert.AttnRef.ref_k, Cert.AttnRef.ref_bias]
  rfl

/-- The reference's value projection is the same function of the arguments as the kernel program's. -/
theorem ref_values_eq (a0 : FVec Ideal Cert.ReferenceIdeal.S1024x8x1024 .f32)
    (a2 : FVec Ideal Cert.ReferenceIdeal.S3072x1024 .f32) (a3 : FVec Ideal Cert.ReferenceIdeal.S3072 .f32) :
    Cert.ReferenceIdeal.Read.val_main_v11 (F := Ideal) a0 a2 a3 = Cert.AttnKernel.valuesOf a0 a2 a3 := by
  rw [Cert.AttnRef.ref_v]
  rfl

/-- Both idealized programs, from memories agreeing on the arguments, end with the attention probabilities and the value
    projection at one and the same function of the arguments. -/
theorem algebraic : Cert.algebraic_KernelIdeal_ReferenceIdeal := by
  intro m ρ m' ρ' _ hagree
  refine ⟨_, _, Cert.AttnKernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v27_eq, ref_probs_eq, (hagree c).1, (hagree c).2.1, (hagree c).2.2.1, (hagree c).2.2.2]
  · rw [Cert.ReferenceIdeal.Read.val_main_v11_eq, ref_values_eq, (hagree c).1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
